-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S4096x8192 : Shape := ⟨2, ![4096, 8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_arg4 : FVec F S4096x8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S4096x8192 .f32 := Host.absf main_arg4
  let main_cst_6 : FVec F S_ .f32 := constant S_ .f32 0x7F800000#32
  let main_v20 : FVec F S4096x8192 .f32 := broadcastInDim S4096x8192 ![] bcast_S_S4096x8192 main_cst_6
  let main_v21 : IVec S4096x8192 1 := cmpf .olt main_v19 main_v20
  let main_c_7 : IVec S_ 1 := constantI S_ 1 1#1
  let main_v22 : IVec S_ 1 := (fun x v => Host.reduce IntOp.andi x v reducesTo_S4096x8192_S_d0_1 h_S_) main_v21 main_c_7
  let main_v23 : IVec S_ 1 := andi main_v18 main_v22
  main_v23

def fn {F : FTy → Type} [FloatOps F] (main_arg0 : FVec F S8192x4096 .f32) (main_arg1 : FVec F S8192x4096 .f32) (main_arg2 : FVec F S8192 .f32) (main_arg3 : FVec F S8192 .f32) (main_arg4 : FVec F S4096x8192 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_v13 main_v16
-- ==== Kernel.lean ====
abbrev S8192x4096 : Shape := ⟨2, ![8192, 4096]⟩
abbrev S8192 : Shape := ⟨1, ![8192]⟩
abbrev S4096x8192 : Shape := ⟨2, ![4096, 8192]⟩
abbrev S8192x1 : Shape := ⟨2, ![8192, 1]⟩
abbrev S1x8192 : Shape := ⟨2, ![1, 8192]⟩
abbrev S8192x8192 : Shape := ⟨2, ![8192, 8192]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 14
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .f32⟩
  | .hbm, ⟨3, _⟩ => ⟨S8192, .f32⟩
  | .hbm, ⟨4, _⟩ => ⟨S4096x8192, .f32⟩
  | .hbm, ⟨5, _⟩ => ⟨S8192x1, .f32⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S1x8192, .f32⟩
  | .hbm, ⟨10, _⟩ => ⟨S8192x4096, .bf16⟩
  | .hbm, ⟨11, _⟩ => ⟨S4096x8192, .bf16⟩
  | .hbm, ⟨12, _⟩ => ⟨S8192x8192, .bf16⟩
  | .hbm, ⟨13, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bitsLt_bf16_f32 : FTy.bits .bf16 < FTy.bits .f32
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x4096.size a
  hwx0_1 : ∀ i : grid0.Coords, EltTy.bits .bf16 = 32 ∨ (Rect.block (s := S8192x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .bf16 = 32 ∨ (Rect.block (s := S8192x8192) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .bf16 = 32 ∨ (Rect.block (s := S8192x8192) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x8192.size a
  hwx1_1 : ∀ i : grid1.Coords, EltTy.bits .bf16 = 32 ∨ (Rect.block (s := S4096x8192) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x4096.size a
  hwx1_2 : ∀ i : grid1.Coords, EltTy.bits .f32 = 32 ∨ (Rect.block (s := S8192x4096) S1024x1024.size (cc1_transform_2 i) (hinb1_2 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v5) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v7) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192 : Shape := ⟨1, ![8192]⟩
abbrev S4096x8192 : Shape := ⟨2, ![4096, 8192]⟩
abbrev S8192x1 : Shape := ⟨2, ![8192, 1]⟩
abbrev S8192x8192 : Shape := ⟨2, ![8192, 8192]⟩
abbrev S1x8192 : Shape := ⟨2, ![1, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .f32⟩
  | .hbm, ⟨3, _⟩ => ⟨S8192, .f32⟩
  | .hbm, ⟨4, _⟩ => ⟨S4096x8192, .f32⟩
  | .hbm, ⟨5, _⟩ => ⟨S8192x1, .f32⟩
  | .hbm, ⟨6, _⟩ => ⟨S8192x4096, .f32⟩
  | .hbm, ⟨7, _⟩ => ⟨S8192x4096, .f32⟩
  | .hbm, ⟨8, _⟩ => ⟨S8192x8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x4096_S8192x4096_S8192x8192_1_1_0_0_n_n_wf : DotDims.WF S8192x4096 S8192x4096 S8192x8192 [1] [1] [0] [0] [] []
  dot_S8192x8192_S4096x8192_S8192x4096_1_1_0_0_n_n_wf : DotDims.WF S8192x8192 S4096x8192 S8192x4096 [1] [1] [0] [0] [] []

variable [Facts₀]

def dot_S8192x4096_S8192x4096_S8192x8192_1_1_0_0_n_n : DotDims S8192x4096 S8192x4096 S8192x8192 where
  lhsContracting := [1]
  rhsContracting := [1]
  lhsNonContracting := [0]
  rhsNonContracting := [0]
  lhsBatch := []
  rhsBatch := []
  wf := dot_S8192x4096_S8192x4096_S8192x8192_1_1_0_0_n_n_wf
def dot_S8192x8192_S4096x8192_S8192x4096_1_1_0_0_n_n : DotDims S8192x8192 S4096x8192 S8192x4096 where
  lhsContracting := [1]
  rhsContracting := [1]
  lhsNonContracting := [0]
  rhsNonContracting := [0]
  lhsBatch := []
  rhsBatch := []
  wf := dot_S8192x8192_S4096x8192_S8192x4096_1_1_0_0_n_n_wf

class Facts : Prop extends Facts₀ where

variable [Facts]
-- ==== Proof.KB.R0Kit.lean ====
/-
  The first product's region, at any float instance: what its windows and its two branches are.

  The grid is 8 × 8 × 2, point t = (i, j, k) with k fastest. Window 0 is block (i, k) of the left operand
  [8192, 4096] in blocks of 1024 × 2048, window 1 block (j, k) of the right operand, window 2 block (0, j) of the
  bias row [1, 8192] in blocks of 1 × 1024, window 3 block (i, j) of the result [8192, 8192] in blocks of
  1024 × 1024. The body zeroes its accumulator when k = 0 (the even points), adds the block product into it at
  every point, and when k = 1 (the odd points) adds the bias, applies the activation and stores the result's
  block; the result's window is idle at the even points. An input's staging buffer holds its block of the array
  at every point, whether the block was fetched at that point or is still there from the point before.
-/
import proofs.«170395_j57449482551364_2_alg».proof.Proof.Gen.Kernel.Launch
import proofs.«170395_j57449482551364_2_alg».proof.Proof.Gen.Kernel.Skeleton
import proofs.«170395_j57449482551364_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of its array at point `t`, the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point. -/
theorem in0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The right operand's staging buffer holds its block at every point. -/
theorem in0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The bias row's staging buffer holds its block at every point (it is fetched at the even points only; at an odd
    point the block index has not moved). -/
theorem in0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

end

/-! ## The two branches -/

/-- "k = 0": the accumulator is zeroed. -/
abbrev cond0_0 (i : grid0.Coords) : Prop := (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- "k = 1": the result's block is stored. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- At an even point the result's window is idle: the body stores nothing into it. -/
theorem idle0_3_even : ∀ t : Fin cfg0.N, cond0_0 (grid0.coords t) → ¬cond0_1 (grid0.coords t) → cfg0.idle 3 (grid0.coords t) = true := by decide +kernel
/-- And its block is not written back there. -/
theorem noFlush0_3_even : ∀ t : Fin cfg0.N, cond0_0 (grid0.coords t) → ¬cond0_1 (grid0.coords t) → (cfg0.win 3).flush t = false := by decide +kernel
/-- At an odd point the result's window is live. -/
theorem live0_3_odd : ∀ t : Fin cfg0.N, ¬cond0_0 (grid0.coords t) → cond0_1 (grid0.coords t) → cfg0.idle 3 (grid0.coords t) = false := by decide +kernel

/-! ## The memrefs the body is called with -/

abbrev VO0_3 : View sig .tc .vmem S1024x1024 .bf16 := (Memref.whole cc0_stg3_0 : Memref sig .tc .vmem S1024x1024 .bf16).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a scoped buffer of the kernel's own, passed beside the windows. -/
abbrev scM0 : Memref sig .tc .vmem S1024x1024 .f32 := Memref.whole cc0_scratch0
abbrev VS0 : View sig .tc .vmem S1024x1024 .f32 := scM0.view

/-- The scoped buffers of the core that are neither this region's staging buffers nor its accumulator (they are the
    second region's), each held whole at something. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's invariant between points, with the accumulator split out as a memref owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

end Cert.Kernel.Hand

end
-- ==== Proof.KB.R0RunE.lean ====
/-
  The first product's body at an even point (k = 0), run whole: from the two operand blocks in their staging
  buffers and the accumulator at anything, it stores zeros into the accumulator, reads them back, and stores the
  block product added to them; the operand buffers come back as they were, and the accumulator holds what the list
  of stores found by the run writes (the last store first). The bias and the result's buffer are not touched.
-/
import proofs.«170395_j57449482551364_2_alg».proof.Proof.KB.R0Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores an even point leaves in the accumulator, with the run that finds them. -/
noncomputable def run0_even (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : cond0_0 i) (hc1 : ¬cond0_1 i)
    (x0 : Vec F S1024x2048 .bf16) (x1 : Vec F S1024x2048 .bf16) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ (∃ d, owns (c : Thread nD τ) a7 fullShare d)
            ∗ (iprop(owns (c : Thread nD τ) a3 fullShare x0 ∗ owns (c : Thread nD τ) a4 fullShare x1 ∗ (∃ f, a7.view.loc (c : Thread nD τ) ↦[a7.view.set]{fullShare} a7.view.writes (Elt F) f LS)) -∗ K ⟨⟩))
          ⊢ wp frame (wpE (defs₀ (F := F)) Variants.none c none) E (cc0__mlp1_kernel i a3 h3 a4 h4 a5 h5 a6 h6 a7 h7) K } := by
  refine ⟨?_, fun E K => ?run⟩
  case run =>
    simp only [cc0__mlp1_kernel_eq_skeleton]; unfold cc0__mlp1_kernel_skel
    unfold owns
    iintro ⟨⟨%f0, %hf0, H0⟩, ⟨%f1, %hf1, H1⟩, ⟨%ds, %fs, -, HS⟩, Hk⟩
    obtain rfl := h3.eq_unread hf0; obtain rfl := h4.eq_unread hf1
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.Kernel.Hand

end
-- ==== Proof.KB.R0RunO.lean ====
/-
  The first product's body at an odd point (k = 1), run whole: from the two operand blocks and the bias row in
  their staging buffers, the result's buffer at anything and the accumulator at what the point before left, it
  stores the block product added to the accumulator, reads that back, adds the bias to every row, applies the
  activation and stores the outcome into the result's buffer. The inputs come back as they were; the accumulator
  and the result's buffer hold what the lists of stores found by the run write.
-/
import proofs.«170395_j57449482551364_2_alg».proof.Proof.KB.R0Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores an odd point leaves in the result's buffer and in the accumulator, with the run that finds them. -/
noncomputable def run0_odd (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : ¬cond0_0 i) (hc1 : cond0_1 i)
    (x0 : Vec F S1024x2048 .bf16) (x1 : Vec F S1024x2048 .bf16) (x2 : Vec F S1x1024 .f32) (xs : Vec F S1024x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ (∃ d, owns (c : Thread nD τ) a6 fullShare d) ∗ owns (c : Thread nD τ) a7 fullShare xs
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L3)
                ∗ (∃ f, a7.view.loc (c : Thread nD τ) ↦[a7.view.set]{fullShare} a7.view.writes (Elt F) f LS)) -∗ K ⟨⟩))
          ⊢ wp frame (wpE (defs₀ (F := F)) Variants.none c none) E (cc0__mlp1_kernel i a3 h3 a4 h4 a5 h5 a6 h6 a7 h7) K } := by
  refine ⟨?_, ?_, fun E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h3.eq_unread hf0; obtain rfl := h4.eq_unread hf1; obtain rfl := h5.eq_unread hf2; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    iexists _; iexact HS

end Cert.Kernel.Hand

end
-- ==== Proof.KB.R0.lean ====
/-
  The first product's region, at any float instance: its proof data and its body obligation.

  After the body at point t the accumulator holds, at an even point, what that point's stores write (zeros, then
  zeros plus the block product of the point's two operand blocks), and at an odd point what its store writes over
  what the even point before it left (that, plus the block product of this point's operand blocks); at an odd
  point the result's staging buffer holds what the body's store writes (the activation of the accumulator plus the
  bias row), at an even point it is idle. Between points the region's invariant keeps the accumulator at exactly
  these contents, beside the second region's scoped buffers and the generator register, which the body never
  touches. Each input's staging buffer holds its block of the array the region found.
-/
import proofs.«170395_j57449482551364_2_alg».proof.Proof.KB.R0RunE
import proofs.«170395_j57449482551364_2_alg».proof.Proof.KB.R0RunO

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point leaves -/

/-- An even point's accumulator: its stores read back. -/
def acc0_even (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : cond0_0 i) (hc1 : ¬cond0_1 i)
    (x0 : Vec F S1024x2048 .bf16) (x1 : Vec F S1024x2048 .bf16) : Vec F S1024x1024 .f32 :=
  VS0.read (Elt F) (VS0.writes (Elt F) VS0.junk (run0_even c i a3 h3 a4 h4 a5 h5 a6 h6 a7 h7 hc0 hc1 x0 x1).1)

/-- Those stores cover the accumulator. -/
theorem acc0_even_cover (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : cond0_0 i) (hc1 : ¬cond0_1 i)
    (x0 : Vec F S1024x2048 .bf16) (x1 : Vec F S1024x2048 .bf16) (y : S1024x1024.Idx) :
    ∃ pc ∈ (run0_even c i a3 h3 a4 h4 a5 h5 a6 h6 a7 h7 hc0 hc1 x0 x1).1, y ∈ pc.1.set :=
  View.cover_of_tiledL (run0_even c i a3 h3 a4 h4 a5 h5 a6 h6 a7 h7 hc0 hc1 x0 x1).1 S1024x1024.size (by sl_kernel_rfl) y

/-- An odd point's accumulator: its store read back. -/
def acc0_odd (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : ¬cond0_0 i) (hc1 : cond0_1 i)
    (x0 : Vec F S1024x2048 .bf16) (x1 : Vec F S1024x2048 .bf16) (x2 : Vec F S1x1024 .f32) (xs : Vec F S1024x1024 .f32) : Vec F S1024x1024 .f32 :=
  VS0.read (Elt F) (VS0.writes (Elt F) VS0.junk (run0_odd c i a3 h3 a4 h4 a5 h5 a6 h6 a7 h7 hc0 hc1 x0 x1 x2 xs).2.1)

theorem acc0_odd_cover (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : ¬cond0_0 i) (hc1 : cond0_1 i)
    (x0 : Vec F S1024x2048 .bf16) (x1 : Vec F S1024x2048 .bf16) (x2 : Vec F S1x1024 .f32) (xs : Vec F S1024x1024 .f32) (y : S1024x1024.Idx) :
    ∃ pc ∈ (run0_odd c i a3 h3 a4 h4 a5 h5 a6 h6 a7 h7 hc0 hc1 x0 x1 x2 xs).2.1, y ∈ pc.1.set :=
  View.cover_of_tiledL (run0_odd c i a3 h3 a4 h4 a5 h5 a6 h6 a7 h7 hc0 hc1 x0 x1 x2 xs).2.1 S1024x1024.size (by sl_kernel_rfl) y

/-- An odd point's result block: its store read back. -/
def out0_odd (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : ¬cond0_0 i) (hc1 : cond0_1 i)
    (x0 : Vec F S1024x2048 .bf16) (x1 : Vec F S1024x2048 .bf16) (x2 : Vec F S1x1024 .f32) (xs : Vec F S1024x1024 .f32) : Vec F S1024x1024 .bf16 :=
  VO0_3.read (Elt F) (VO0_3.writes (Elt F) VO0_3.junk (run0_odd c i a3 h3 a4 h4 a5 h5 a6 h6 a7 h7 hc0 hc1 x0 x1 x2 xs).1)

theorem out0_odd_cover (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : ¬cond0_0 i) (hc1 : cond0_1 i)
    (x0 : Vec F S1024x2048 .bf16) (x1 : Vec F S1024x2048 .bf16) (x2 : Vec F S1x1024 .f32) (xs : Vec F S1024x1024 .f32) (y : S1024x1024.Idx) :
    ∃ pc ∈ (run0_odd c i a3 h3 a4 h4 a5 h5 a6 h6 a7 h7 hc0 hc1 x0 x1 x2 xs).1, y ∈ pc.1.set :=
  View.cover_of_tiledL (run0_odd c i a3 h3 a4 h4 a5 h5 a6 h6 a7 h7 hc0 hc1 x0 x1 x2 xs).1 S1024x1024.size (by sl_kernel_rfl) y

theorem even_c0 (t : Fin cfg0.N) (h : t.val % 2 = 0) : cond0_0 (grid0.coords t) := (hcond0_0 t).mpr h
theorem even_c1 (t : Fin cfg0.N) (h : t.val % 2 = 0) : ¬cond0_1 (grid0.coords t) := fun hh => by have := (hcond0_1 t).mp hh; omega
theorem odd_c0 (t : Fin cfg0.N) (h : t.val % 2 = 1) : ¬cond0_0 (grid0.coords t) := fun hh => by have := (hcond0_0 t).mp hh; omega
theorem odd_c1 (t : Fin cfg0.N) (h : t.val % 2 = 1) : cond0_1 (grid0.coords t) := (hcond0_1 t).mpr h

section
variable (V : (c : Dev nD) → (b : Ref sig .tc) → Buf (Elt F) ((c : Thread nD τ).loc b))

/-- What an even point leaves: the result's buffer idle (a placeholder nothing consults), the accumulator at the
    point's stores over its two operand blocks. -/
def evenPt (c : Dev nD) (t : Fin cfg0.N) (h : t.val % 2 = 0) : Vec F S1024x1024 .bf16 × Vec F S1024x1024 .f32 :=
  (VO0_3.read (Elt F) (VO0_3.writes (Elt F) VO0_3.junk []),
   acc0_even c (grid0.coords t) (ms0_0 t) (hs0_0 t) (ms0_1 t) (hs0_1 t) (ms0_2 t) (hs0_2 t) (ms0_3 t) (hs0_3 t) scM0 (Memref.isWhole_whole _) (even_c0 t h) (even_c1 t h) (blk0 V c 0 t) (blk0 V c 1 t))

/-- What an odd point leaves over the accumulator `xs` it finds. -/
def oddPt (c : Dev nD) (t : Fin cfg0.N) (h : t.val % 2 = 1) (xs : Vec F S1024x1024 .f32) : Vec F S1024x1024 .bf16 × Vec F S1024x1024 .f32 :=
  (out0_odd c (grid0.coords t) (ms0_0 t) (hs0_0 t) (ms0_1 t) (hs0_1 t) (ms0_2 t) (hs0_2 t) (ms0_3 t) (hs0_3 t) scM0 (Memref.isWhole_whole _) (odd_c0 t h) (odd_c1 t h) (blk0 V c 0 t) (blk0 V c 1 t) (blk0 V c 2 t) xs,
   acc0_odd c (grid0.coords t) (ms0_0 t) (hs0_0 t) (ms0_1 t) (hs0_1 t) (ms0_2 t) (hs0_2 t) (ms0_3 t) (hs0_3 t) scM0 (Memref.isWhole_whole _) (odd_c0 t h) (odd_c1 t h) (blk0 V c 0 t) (blk0 V c 1 t) (blk0 V c 2 t) xs)

/-- What the result's staging buffer and the accumulator hold after the body at position `n`. -/
def outsAt0 (c : Dev nD) : (n : ℕ) → n < cfg0.N → Vec F S1024x1024 .bf16 × Vec F S1024x1024 .f32
  | 0, hn => evenPt V c ⟨0, hn⟩ (Nat.zero_mod _)
  | n + 1, hn =>
    if h : (n + 1) % 2 = 0 then evenPt V c ⟨n + 1, hn⟩ h
    else oddPt V c ⟨n + 1, hn⟩ (by show (n + 1) % 2 = 1; omega) (outsAt0 c n (Nat.lt_of_succ_lt hn)).2

theorem outsAt0_even (c : Dev nD) (t : Fin cfg0.N) (h : t.val % 2 = 0) : outsAt0 V c t.val t.isLt = evenPt V c t h := by
  obtain ⟨n, hn⟩ := t
  cases n with
  | zero => exact rfl
  | succ n => exact (dif_pos h).trans rfl

theorem outsAt0_odd (c : Dev nD) (t : Fin cfg0.N) (h : t.val % 2 = 1) :
    outsAt0 V c t.val t.isLt = oddPt V c t h (outsAt0 V c (t.val - 1) (Nat.lt_of_le_of_lt (Nat.sub_le _ _) t.isLt)).2 := by
  obtain ⟨n, hn⟩ := t
  cases n with
  | zero => exact absurd (show 0 % 2 = 1 from h) (by decide)
  | succ n => exact (dif_neg (by have h' : (n + 1) % 2 = 1 := h; omega)).trans rfl

/-! ## The invariant between points -/

/-- Before the first point the launch's invariant; before any other the accumulator at what the point before left,
    the second region's scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

/-- The arrays as the region finds them; after the body each input's buffer at its block and the result's at
    `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = blk0 V c 0 t :=
  in0_0_of V (dat0 V c) (A_eq0 V c 0) (after0_0 V c) t d
theorem before0_1 (c : Dev nD) (t : Fin cfg0.N) (d) : (dat0 V c).before 1 t d = blk0 V c 1 t :=
  in0_1_of V (dat0 V c) (A_eq0 V c 1) (after0_1 V c) t d
theorem before0_2 (c : Dev nD) (t : Fin cfg0.N) (d) : (dat0 V c).before 2 t d = blk0 V c 2 t :=
  in0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the point's parity says which run applies; the
    invariant hands the body the accumulator (at anything before the first point, at what the point before left
    afterwards) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 128 := lt_of_lt_of_eq t.isLt (show cfg0.N = 128 from N_0)
  by_cases h0 : t.val % 2 = 0
  · rw [Dat.leavesExact_idle (dat0 V c) 3 t (idle0_3_even t (even_c0 t h0) (even_c1 t h0)) (noFlush0_3_even t (even_c0 t h0) (even_c1 t h0))]
    rw [outsAt0_even V c t h0]
    unfold evenPt acc0_even; (try dsimp only)
    by_cases hz : t.val = 0
    · rw [Phi0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩⟩
      iapply ((run0_even c (grid0.coords t) _ _ _ _ _ _ _ _ _ _ (even_c0 t h0) (even_c1 t h0) (blk0 V c 0 t) (blk0 V c 1 t)).2 Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (acc0_even_cover c _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [Phi0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply ((run0_even c (grid0.coords t) _ _ _ _ _ _ _ _ _ _ (even_c0 t h0) (even_c1 t h0) (blk0 V c 0 t) (blk0 V c 1 t)).2 Set.univ _)
      isplitl [H0]; · iexact H0
      isplitl [H1]; · iexact H1
      isplitl [HS]; · iexists _; iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (acc0_even_cover c _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have h1 : t.val % 2 = 1 := by omega
    rw [show (dat0 V c).leavesExact 3 t = owns (c : Thread nD τ) (ms0_3 t) fullShare ((dat0 V c).after 3 t) from by
      unfold Dat.leavesExact; rw [live0_3_odd t (odd_c0 t h1) (odd_c1 t h1)], after0_3]
    rw [outsAt0_odd V c t h1]
    unfold oddPt out0_odd acc0_odd; (try dsimp only)
    have hz : t.val ≠ 0 := by omega
    rw [Phi0_castSucc V c t, PhiS0_pos V c _ _ hz]
    iintro ⟨⟨⟨HS, Hr⟩, Hg⟩, Ho, ⟨%d0, H0⟩, ⟨%d1, H1⟩, ⟨%d2, H2⟩, ⟨%d3, H3⟩⟩
    iapply ((run0_odd c (grid0.coords t) _ _ _ _ _ _ _ _ _ _ (odd_c0 t h1) (odd_c1 t h1) (blk0 V c 0 t) (blk0 V c 1 t) (blk0 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hr Hg]
    · isplitl [HS Hr]
      · isplitl [HS]
        · unfold owns; iexists _; isplitr
          swap; · iexact HS
          ipureintro; exact View.read_writes_of_cover _ _ _ _ _ (acc0_odd_cover c _ _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (out0_odd_cover c _ _ _ _ _ _ _ _ _ _ _ _ _ _ _ _ _)

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the launch's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, Hr⟩, Hg⟩
  isplitl [HS Hr]
  · isplitl [HS]; · iexists _; iexact HS
    iexact Hr
  iexact Hg

end

end Cert.Kernel.Hand

end
-- ==== Proof.KB.R1Kit.lean ====
/-
  The second product's region, at any float instance: what its windows and its two branches are.

  The grid is 8 × 4 × 4, point t = (i, j, k) with k fastest. Window 0 is block (i, k) of the hidden layer
  [8192, 8192] in blocks of 1024 × 2048, window 1 block (j, k) of the second weight [4096, 8192], window 2 block
  (i, j) of the result [8192, 4096] in blocks of 1024 × 1024. The body zeroes its accumulator when k = 0 (the points
  ≡ 0 mod 4), adds the block product into it at every point, and when k = 3 (the points ≡ 3 mod 4) copies the
  accumulator into the result's block; the result's window is idle at the other points.
-/
import proofs.«170395_j57449482551364_2_alg».proof.Proof.Gen.Kernel.Launch
import proofs.«170395_j57449482551364_2_alg».proof.Proof.Gen.Kernel.Skeleton
import proofs.«170395_j57449482551364_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of its array at point `t`, the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden layer's staging buffer holds its block at every point. -/
theorem in1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The second weight's staging buffer holds its block at every point. -/
theorem in1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

end

/-! ## The two branches -/

/-- "k = 0": the accumulator is zeroed. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the result's block is stored. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Where the result's block is not stored its window is idle, -/
theorem idle1_2_first : ∀ t : Fin cfg1.N, cond1_0 (grid1.coords t) → ¬cond1_1 (grid1.coords t) → cfg1.idle 2 (grid1.coords t) = true := by decide +kernel
theorem idle1_2_mid : ∀ t : Fin cfg1.N, ¬cond1_0 (grid1.coords t) → ¬cond1_1 (grid1.coords t) → cfg1.idle 2 (grid1.coords t) = true := by decide +kernel
/-- and not written back. -/
theorem noFlush1_2_first : ∀ t : Fin cfg1.N, cond1_0 (grid1.coords t) → ¬cond1_1 (grid1.coords t) → (cfg1.win 2).flush t = false := by decide +kernel
theorem noFlush1_2_mid : ∀ t : Fin cfg1.N, ¬cond1_0 (grid1.coords t) → ¬cond1_1 (grid1.coords t) → (cfg1.win 2).flush t = false := by decide +kernel
/-- Where it is stored the window is live. -/
theorem live1_2_last : ∀ t : Fin cfg1.N, ¬cond1_0 (grid1.coords t) → cond1_1 (grid1.coords t) → cfg1.idle 2 (grid1.coords t) = false := by decide +kernel

/-! ## The memrefs the body is called with -/

abbrev VO1_2 : View sig .tc .vmem S1024x1024 .f32 := (Memref.whole cc1_stg2_0 : Memref sig .tc .vmem S1024x1024 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The accumulator: a scoped buffer of the kernel's own, passed beside the windows. -/
abbrev scM1 : Memref sig .tc .vmem S1024x1024 .f32 := Memref.whole cc1_scratch0
abbrev VS1 : View sig .tc .vmem S1024x1024 .f32 := scM1.view

/-- The scoped buffers of the core that are neither this region's staging buffers nor its accumulator (they are the
    first region's), each held whole at something. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The region's invariant between points gives the accumulator at some contents, the first region's buffers and the
    generator register. -/
theorem PhiA1_split (c : Dev nD) :
    (Pipeline.ΦA spec1 c : sProp 𝕄)
      ⊢ iprop((∃ d, owns (c : Thread nD τ) scM1 fullShare d) ∗ rest1 c ∗ (∃ r, prngReg c r)) := by
  unfold Pipeline.ΦA rest1; rw [scopedRest1_eq]; simp only [scM1, owns_whole]
  iintro ⟨⟨B0, B1, B2, B3, B4, B5, B6, B7, B8, HS⟩, Hg⟩
  isplitl [HS]; · iexact HS
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hg

/-- And takes them back. -/
theorem PhiA1_join (c : Dev nD) :
    iprop((∃ d, owns (c : Thread nD τ) scM1 fullShare d) ∗ rest1 c ∗ (∃ r, prngReg c r))
      ⊢ (Pipeline.ΦA spec1 c : sProp 𝕄) := by
  unfold Pipeline.ΦA rest1; rw [scopedRest1_eq]; simp only [scM1, owns_whole]
  iintro ⟨HS, ⟨B0, B1, B2, B3, B4, B5, B6, B7, B8⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact HS
  iexact Hg

end Cert.Kernel.Hand

end
-- ==== Proof.KB.R1RunF.lean ====
/-
  The second product's body at a first point (k = 0), run whole: from the two operand blocks in their staging
  buffers and the accumulator at anything, it stores zeros into the accumulator, reads them back, and stores the
  block product added to them; the operand buffers come back as they were, and the accumulator holds what the list
  of stores found by the run writes (the last store first). The result's buffer is not touched.
-/
import proofs.«170395_j57449482551364_2_alg».proof.Proof.KB.R1Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores a first point leaves in the accumulator, with the run that finds them. -/
noncomputable def run1_first (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : cond1_0 i) (hc1 : ¬cond1_1 i)
    (x0 : Vec F S1024x2048 .bf16) (x1 : Vec F S1024x2048 .bf16) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ (∃ d, owns (c : Thread nD τ) a6 fullShare d)
            ∗ (iprop(owns (c : Thread nD τ) a3 fullShare x0 ∗ owns (c : Thread nD τ) a4 fullShare x1 ∗ (∃ f, a6.view.loc (c : Thread nD τ) ↦[a6.view.set]{fullShare} a6.view.writes (Elt F) f LS)) -∗ K ⟨⟩))
          ⊢ wp frame (wpE (defs₀ (F := F)) Variants.none c none) E (cc1__mlp2_kernel i a3 h3 a4 h4 a5 h5 a6 h6) K } := by
  refine ⟨?_, fun E K => ?run⟩
  case run =>
    simp only [cc1__mlp2_kernel_eq_skeleton]; unfold cc1__mlp2_kernel_skel
    unfold owns
    iintro ⟨⟨%f0, %hf0, H0⟩, ⟨%f1, %hf1, H1⟩, ⟨%ds, %fs, -, HS⟩, Hk⟩
    obtain rfl := h3.eq_unread hf0; obtain rfl := h4.eq_unread hf1
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.Kernel.Hand

end
-- ==== Proof.KB.R1RunM.lean ====
/-
  The second product's body at a middle point (k = 1 or 2), run whole: from the two operand blocks in their
  staging buffers and the accumulator at what the point before left, it stores the block product added to the
  accumulator; the operand buffers come back as they were, and the accumulator holds what the list of stores found
  by the run writes. The result's buffer is not touched.
-/
import proofs.«170395_j57449482551364_2_alg».proof.Proof.KB.R1Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores a middle point leaves in the accumulator, with the run that finds them. -/
noncomputable def run1_mid (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : ¬cond1_1 i)
    (x0 : Vec F S1024x2048 .bf16) (x1 : Vec F S1024x2048 .bf16) (xs : Vec F S1024x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a6 fullShare xs
            ∗ (iprop(owns (c : Thread nD τ) a3 fullShare x0 ∗ owns (c : Thread nD τ) a4 fullShare x1 ∗ (∃ f, a6.view.loc (c : Thread nD τ) ↦[a6.view.set]{fullShare} a6.view.writes (Elt F) f LS)) -∗ K ⟨⟩))
          ⊢ wp frame (wpE (defs₀ (F := F)) Variants.none c none) E (cc1__mlp2_kernel i a3 h3 a4 h4 a5 h5 a6 h6) K } := by
  refine ⟨?_, fun E K => ?run⟩
  case run =>
    simp only [cc1__mlp2_kernel_eq_skeleton]; unfold cc1__mlp2_kernel_skel
    unfold owns
    iintro ⟨⟨%f0, %hf0, H0⟩, ⟨%f1, %hf1, H1⟩, ⟨%fs, %hfs, HS⟩, Hk⟩
    obtain rfl := h3.eq_unread hf0; obtain rfl := h4.eq_unread hf1; obtain rfl := h6.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.Kernel.Hand

end
-- ==== Proof.KB.R1RunL.lean ====
/-
  The second product's body at a last point (k = 3), run whole: from the two operand blocks in their staging
  buffers, the result's buffer at anything and the accumulator at what the point before left, it stores the block
  product added to the accumulator, reads that back and stores it, unchanged, into the result's buffer. The operand
  buffers come back as they were; the result's buffer and the accumulator hold what the lists of stores found by
  the run write.
-/
import proofs.«170395_j57449482551364_2_alg».proof.Proof.KB.R1Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores a last point leaves in the result's buffer and in the accumulator, with the run that finds them. -/
noncomputable def run1_last (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : cond1_1 i)
    (x0 : Vec F S1024x2048 .bf16) (x1 : Vec F S1024x2048 .bf16) (xs : Vec F S1024x1024 .f32) :
    Σ' (L2 : List (View.Piece (Elt F) S1024x1024 .f32)), { LS : List (View.Piece (Elt F) S1024x1024 .f32) //
      ∀ (E : Set ℕ) (K : PUnit → sProp 𝕄),
        iprop(owns (c : Thread nD τ) a3 fullShare x0 ∗ owns (c : Thread nD τ) a4 fullShare x1
            ∗ (∃ d, owns (c : Thread nD τ) a5 fullShare d) ∗ owns (c : Thread nD τ) a6 fullShare xs
            ∗ (iprop(owns (c : Thread nD τ) a3 fullShare x0 ∗ owns (c : Thread nD τ) a4 fullShare x1
                ∗ (∃ f, a5.view.loc (c : Thread nD τ) ↦[a5.view.set]{fullShare} a5.view.writes (Elt F) f L2)
                ∗ (∃ f, a6.view.loc (c : Thread nD τ) ↦[a6.view.set]{fullShare} a6.view.writes (Elt F) f LS)) -∗ K ⟨⟩))
          ⊢ wp frame (wpE (defs₀ (F := F)) Variants.none c none) E (cc1__mlp2_kernel i a3 h3 a4 h4 a5 h5 a6 h6) K } := by
  refine ⟨?_, ?_, fun E K => ?run⟩
  case run =>
    simp only [cc1__mlp2_kernel_eq_skeleton]; unfold cc1__mlp2_kernel_skel
    unfold owns
    iintro ⟨⟨%f0, %hf0, H0⟩, ⟨%f1, %hf1, H1⟩, ⟨%d2, %f2, -, H2⟩, ⟨%fs, %hfs, HS⟩, Hk⟩
    obtain rfl := h3.eq_unread hf0; obtain rfl := h4.eq_unread hf1; obtain rfl := h6.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]; · iexists _; iexact H2
    iexists _; iexact HS

end Cert.Kernel.Hand

end
-- ==== Proof.KB.R1.lean ====
/-
  The second product's region, at any float instance: its proof data and its body obligation.

  The points come in groups of four (k = 0, 1, 2, 3). After the body at the first point of a group the accumulator
  holds what that point's stores write (zeros, then zeros plus the block product of the point's operand blocks); at
  each later point what its store writes over what the point before left (that, plus this point's block product);
  at the last point of the group the result's staging buffer receives the accumulator, and at the other points it
  is idle. Between points the invariant keeps the accumulator at exactly these contents, beside the first region's
  scoped buffers and the generator register, which the body never touches.
-/
import proofs.«170395_j57449482551364_2_alg».proof.Proof.KB.R1RunF
import proofs.«170395_j57449482551364_2_alg».proof.Proof.KB.R1RunM
import proofs.«170395_j57449482551364_2_alg».proof.Proof.KB.R1RunL

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point leaves -/

def acc1_first (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : cond1_0 i) (hc1 : ¬cond1_1 i)
    (x0 : Vec F S1024x2048 .bf16) (x1 : Vec F S1024x2048 .bf16) : Vec F S1024x1024 .f32 :=
  VS1.read (Elt F) (VS1.writes (Elt F) VS1.junk (run1_first c i a3 h3 a4 h4 a5 h5 a6 h6 hc0 hc1 x0 x1).1)

theorem acc1_first_cover (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : cond1_0 i) (hc1 : ¬cond1_1 i)
    (x0 : Vec F S1024x2048 .bf16) (x1 : Vec F S1024x2048 .bf16) (y : S1024x1024.Idx) :
    ∃ pc ∈ (run1_first c i a3 h3 a4 h4 a5 h5 a6 h6 hc0 hc1 x0 x1).1, y ∈ pc.1.set :=
  View.cover_of_tiledL (run1_first c i a3 h3 a4 h4 a5 h5 a6 h6 hc0 hc1 x0 x1).1 S1024x1024.size (by sl_kernel_rfl) y

def acc1_mid (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : ¬cond1_1 i)
    (x0 : Vec F S1024x2048 .bf16) (x1 : Vec F S1024x2048 .bf16) (xs : Vec F S1024x1024 .f32) : Vec F S1024x1024 .f32 :=
  VS1.read (Elt F) (VS1.writes (Elt F) VS1.junk (run1_mid c i a3 h3 a4 h4 a5 h5 a6 h6 hc0 hc1 x0 x1 xs).1)

theorem acc1_mid_cover (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : ¬cond1_1 i)
    (x0 : Vec F S1024x2048 .bf16) (x1 : Vec F S1024x2048 .bf16) (xs : Vec F S1024x1024 .f32) (y : S1024x1024.Idx) :
    ∃ pc ∈ (run1_mid c i a3 h3 a4 h4 a5 h5 a6 h6 hc0 hc1 x0 x1 xs).1, y ∈ pc.1.set :=
  View.cover_of_tiledL (run1_mid c i a3 h3 a4 h4 a5 h5 a6 h6 hc0 hc1 x0 x1 xs).1 S1024x1024.size (by sl_kernel_rfl) y

def acc1_last (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : cond1_1 i)
    (x0 : Vec F S1024x2048 .bf16) (x1 : Vec F S1024x2048 .bf16) (xs : Vec F S1024x1024 .f32) : Vec F S1024x1024 .f32 :=
  VS1.read (Elt F) (VS1.writes (Elt F) VS1.junk (run1_last c i a3 h3 a4 h4 a5 h5 a6 h6 hc0 hc1 x0 x1 xs).2.1)

theorem acc1_last_cover (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : cond1_1 i)
    (x0 : Vec F S1024x2048 .bf16) (x1 : Vec F S1024x2048 .bf16) (xs : Vec F S1024x1024 .f32) (y : S1024x1024.Idx) :
    ∃ pc ∈ (run1_last c i a3 h3 a4 h4 a5 h5 a6 h6 hc0 hc1 x0 x1 xs).2.1, y ∈ pc.1.set :=
  View.cover_of_tiledL (run1_last c i a3 h3 a4 h4 a5 h5 a6 h6 hc0 hc1 x0 x1 xs).2.1 S1024x1024.size (by sl_kernel_rfl) y

def out1_last (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : cond1_1 i)
    (x0 : Vec F S1024x2048 .bf16) (x1 : Vec F S1024x2048 .bf16) (xs : Vec F S1024x1024 .f32) : Vec F S1024x1024 .f32 :=
  VO1_2.read (Elt F) (VO1_2.writes (Elt F) VO1_2.junk (run1_last c i a3 h3 a4 h4 a5 h5 a6 h6 hc0 hc1 x0 x1 xs).1)

theorem out1_last_cover (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : cond1_1 i)
    (x0 : Vec F S1024x2048 .bf16) (x1 : Vec F S1024x2048 .bf16) (xs : Vec F S1024x1024 .f32) (y : S1024x1024.Idx) :
    ∃ pc ∈ (run1_last c i a3 h3 a4 h4 a5 h5 a6 h6 hc0 hc1 x0 x1 xs).1, y ∈ pc.1.set :=
  View.cover_of_tiledL (run1_last c i a3 h3 a4 h4 a5 h5 a6 h6 hc0 hc1 x0 x1 xs).1 S1024x1024.size (by sl_kernel_rfl) y

theorem first_c0 (t : Fin cfg1.N) (h : t.val % 4 = 0) : cond1_0 (grid1.coords t) := (hcond1_0 t).mpr h
theorem first_c1 (t : Fin cfg1.N) (h : t.val % 4 = 0) : ¬cond1_1 (grid1.coords t) := fun hh => by have := (hcond1_1 t).mp hh; omega
theorem mid_c0 (t : Fin cfg1.N) (h : ¬t.val % 4 = 0) : ¬cond1_0 (grid1.coords t) := fun hh => h ((hcond1_0 t).mp hh)
theorem mid_c1 (t : Fin cfg1.N) (h : ¬t.val % 4 = 3) : ¬cond1_1 (grid1.coords t) := fun hh => h ((hcond1_1 t).mp hh)
theorem last_c0 (t : Fin cfg1.N) (h : t.val % 4 = 3) : ¬cond1_0 (grid1.coords t) := fun hh => by have := (hcond1_0 t).mp hh; omega
theorem last_c1 (t : Fin cfg1.N) (h : t.val % 4 = 3) : cond1_1 (grid1.coords t) := (hcond1_1 t).mpr h

section
variable (V : (c : Dev nD) → (b : Ref sig .tc) → Buf (Elt F) ((c : Thread nD τ).loc b))

/-- The first point of a group: the result's buffer idle (a placeholder nothing consults), the accumulator at the
    point's stores over its two operand blocks. -/
def firstPt (c : Dev nD) (t : Fin cfg1.N) (h : t.val % 4 = 0) : Vec F S1024x1024 .f32 × Vec F S1024x1024 .f32 :=
  (VO1_2.read (Elt F) (VO1_2.writes (Elt F) VO1_2.junk []),
   acc1_first c (grid1.coords t) (ms1_0 t) (hs1_0 t) (ms1_1 t) (hs1_1 t) (ms1_2 t) (hs1_2 t) scM1 (Memref.isWhole_whole _) (first_c0 t h) (first_c1 t h) (blk1 V c 0 t) (blk1 V c 1 t))

/-- A middle point, over the accumulator `xs` it finds. -/
def midPt (c : Dev nD) (t : Fin cfg1.N) (h0 : ¬t.val % 4 = 0) (h3 : ¬t.val % 4 = 3) (xs : Vec F S1024x1024 .f32) : Vec F S1024x1024 .f32 × Vec F S1024x1024 .f32 :=
  (VO1_2.read (Elt F) (VO1_2.writes (Elt F) VO1_2.junk []),
   acc1_mid c (grid1.coords t) (ms1_0 t) (hs1_0 t) (ms1_1 t) (hs1_1 t) (ms1_2 t) (hs1_2 t) scM1 (Memref.isWhole_whole _) (mid_c0 t h0) (mid_c1 t h3) (blk1 V c 0 t) (blk1 V c 1 t) xs)

/-- The last point of a group, over the accumulator `xs` it finds. -/
def lastPt (c : Dev nD) (t : Fin cfg1.N) (h : t.val % 4 = 3) (xs : Vec F S1024x1024 .f32) : Vec F S1024x1024 .f32 × Vec F S1024x1024 .f32 :=
  (out1_last c (grid1.coords t) (ms1_0 t) (hs1_0 t) (ms1_1 t) (hs1_1 t) (ms1_2 t) (hs1_2 t) scM1 (Memref.isWhole_whole _) (last_c0 t h) (last_c1 t h) (blk1 V c 0 t) (blk1 V c 1 t) xs,
   acc1_last c (grid1.coords t) (ms1_0 t) (hs1_0 t) (ms1_1 t) (hs1_1 t) (ms1_2 t) (hs1_2 t) scM1 (Memref.isWhole_whole _) (last_c0 t h) (last_c1 t h) (blk1 V c 0 t) (blk1 V c 1 t) xs)

/-- What the result's staging buffer and the accumulator hold after the body at position `n`. -/
def outsAt1 (c : Dev nD) : (n : ℕ) → n < cfg1.N → Vec F S1024x1024 .f32 × Vec F S1024x1024 .f32
  | 0, hn => firstPt V c ⟨0, hn⟩ (Nat.zero_mod _)
  | n + 1, hn =>
    if h0 : (n + 1) % 4 = 0 then firstPt V c ⟨n + 1, hn⟩ h0
    else if h3 : (n + 1) % 4 = 3 then lastPt V c ⟨n + 1, hn⟩ h3 (outsAt1 c n (Nat.lt_of_succ_lt hn)).2
    else midPt V c ⟨n + 1, hn⟩ h0 h3 (outsAt1 c n (Nat.lt_of_succ_lt hn)).2

theorem outsAt1_first (c : Dev nD) (t : Fin cfg1.N) (h : t.val % 4 = 0) : outsAt1 V c t.val t.isLt = firstPt V c t h := by
  obtain ⟨n, hn⟩ := t
  cases n with
  | zero => exact rfl
  | succ n => exact (dif_pos h).trans rfl

theorem outsAt1_mid (c : Dev nD) (t : Fin cfg1.N) (h0 : ¬t.val % 4 = 0) (h3 : ¬t.val % 4 = 3) :
    outsAt1 V c t.val t.isLt = midPt V c t h0 h3 (outsAt1 V c (t.val - 1) (Nat.lt_of_le_of_lt (Nat.sub_le _ _) t.isLt)).2 := by
  obtain ⟨n, hn⟩ := t
  cases n with
  | zero => exact absurd (Nat.zero_mod 4) h0
  | succ n => exact (dif_neg h0).trans ((dif_neg h3).trans rfl)

theorem outsAt1_last (c : Dev nD) (t : Fin cfg1.N) (h : t.val % 4 = 3) :
    outsAt1 V c t.val t.isLt = lastPt V c t h (outsAt1 V c (t.val - 1) (Nat.lt_of_le_of_lt (Nat.sub_le _ _) t.isLt)).2 := by
  obtain ⟨n, hn⟩ := t
  cases n with
  | zero => exact absurd (show 0 % 4 = 3 from h) (by decide)
  | succ n => exact (dif_neg (by have h' : (n + 1) % 4 = 3 := h; omega)).trans ((dif_pos h).trans rfl)

/-! ## The invariant between points -/

def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ rest1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare ((outsAt1 V c n hn).2) ∗ rest1 c ∗ (∃ r, prngReg c r)) := rfl

theorem PhiS1_pos (c : Dev nD) (n : ℕ) (h : n ≤ cfg1.N) (hz : n ≠ 0) :
    PhiS1 V c n h = iprop(owns (c : Thread nD τ) scM1 fullShare ((outsAt1 V c (n - 1) (by omega)).2) ∗ rest1 c ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = blk1 V c 0 t :=
  in1_0_of V (dat1 V c) (A_eq1 V c 0) (after1_0 V c) t d
theorem before1_1 (c : Dev nD) (t : Fin cfg1.N) (d) : (dat1 V c).before 1 t d = blk1 V c 1 t :=
  in1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's place in its group says which run
    applies; the invariant hands the body the accumulator and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 128 := lt_of_lt_of_eq t.isLt (show cfg1.N = 128 from N_1)
  by_cases h0 : t.val % 4 = 0
  · rw [Dat.leavesExact_idle (dat1 V c) 2 t (idle1_2_first t (first_c0 t h0) (first_c1 t h0)) (noFlush1_2_first t (first_c0 t h0) (first_c1 t h0))]
    rw [outsAt1_first V c t h0]
    unfold firstPt acc1_first; (try dsimp only)
    by_cases hz : t.val = 0
    · rw [Phi1_castSucc V c t, PhiS1_zero V c _ _ hz]
      iintro ⟨HΦ, Ho, ⟨%d0, H0⟩, ⟨%d1, H1⟩, ⟨%d2, H2⟩⟩
      ihave HΦ' := (PhiA1_split c) $$ HΦ
      icases HΦ' with ⟨HS, Hr, Hg⟩
      iapply ((run1_first c (grid1.coords t) _ _ _ _ _ _ _ _ (first_c0 t h0) (first_c1 t h0) (blk1 V c 0 t) (blk1 V c 1 t)).2 Set.univ _)
      isplitl [H0]; · iexact H0
      isplitl [H1]; · iexact H1
      isplitl [HS]; · iexact HS
      iintro ⟨H0, H1, ⟨%es, HS⟩⟩
      isplitl [HS Hr Hg]
      · isplitl [HS]
        · unfold owns; iexists _; isplitr
          swap; · iexact HS
          ipureintro; exact View.read_writes_of_cover _ _ _ _ _ (acc1_first_cover c _ _ _ _ _ _ _ _ _ _ _ _ _)
        isplitl [Hr]; · iexact Hr
        iexact Hg
      isplitl [Ho]; · iexact Ho
      isplitl [H0]; · iexact H0
      isplitl [H1]; · iexact H1
      iexists _; iexact H2
    · rw [Phi1_castSucc V c t, PhiS1_pos V c _ _ hz]
      iintro ⟨⟨HS, Hr, Hg⟩, Ho, ⟨%d0, H0⟩, ⟨%d1, H1⟩, ⟨%d2, H2⟩⟩
      iapply ((run1_first c (grid1.coords t) _ _ _ _ _ _ _ _ (first_c0 t h0) (first_c1 t h0) (blk1 V c 0 t) (blk1 V c 1 t)).2 Set.univ _)
      isplitl [H0]; · iexact H0
      isplitl [H1]; · iexact H1
      isplitl [HS]; · iexists _; iexact HS
      iintro ⟨H0, H1, ⟨%es, HS⟩⟩
      isplitl [HS Hr Hg]
      · isplitl [HS]
        · unfold owns; iexists _; isplitr
          swap; · iexact HS
          ipureintro; exact View.read_writes_of_cover _ _ _ _ _ (acc1_first_cover c _ _ _ _ _ _ _ _ _ _ _ _ _)
        isplitl [Hr]; · iexact Hr
        iexact Hg
      isplitl [Ho]; · iexact Ho
      isplitl [H0]; · iexact H0
      isplitl [H1]; · iexact H1
      iexists _; iexact H2
  · have hz : t.val ≠ 0 := fun e => h0 (by rw [e])
    by_cases h3 : t.val % 4 = 3
    · rw [show (dat1 V c).leavesExact 2 t = owns (c : Thread nD τ) (ms1_2 t) fullShare ((dat1 V c).after 2 t) from by
        unfold Dat.leavesExact; rw [live1_2_last t (last_c0 t h3) (last_c1 t h3)], after1_2]
      rw [outsAt1_last V c t h3]
      unfold lastPt out1_last acc1_last; (try dsimp only)
      rw [Phi1_castSucc V c t, PhiS1_pos V c _ _ hz]
      iintro ⟨⟨HS, Hr, Hg⟩, Ho, ⟨%d0, H0⟩, ⟨%d1, H1⟩, ⟨%d2, H2⟩⟩
      iapply ((run1_last c (grid1.coords t) _ _ _ _ _ _ _ _ (last_c0 t h3) (last_c1 t h3) (blk1 V c 0 t) (blk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS]
        · unfold owns; iexists _; isplitr
          swap; · iexact HS
          ipureintro; exact View.read_writes_of_cover _ _ _ _ _ (acc1_last_cover c _ _ _ _ _ _ _ _ _ _ _ _ _ _)
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (out1_last_cover c _ _ _ _ _ _ _ _ _ _ _ _ _ _)
    · rw [Dat.leavesExact_idle (dat1 V c) 2 t (idle1_2_mid t (mid_c0 t h0) (mid_c1 t h3)) (noFlush1_2_mid t (mid_c0 t h0) (mid_c1 t h3))]
      rw [outsAt1_mid V c t h0 h3]
      unfold midPt acc1_mid; (try dsimp only)
      rw [Phi1_castSucc V c t, PhiS1_pos V c _ _ hz]
      iintro ⟨⟨HS, Hr, Hg⟩, Ho, ⟨%d0, H0⟩, ⟨%d1, H1⟩, ⟨%d2, H2⟩⟩
      iapply ((run1_mid c (grid1.coords t) _ _ _ _ _ _ _ _ (mid_c0 t h0) (mid_c1 t h3) (blk1 V c 0 t) (blk1 V c 1 t) _).2 Set.univ _)
      isplitl [H0]; · iexact H0
      isplitl [H1]; · iexact H1
      isplitl [HS]; · iexact HS
      iintro ⟨H0, H1, ⟨%es, HS⟩⟩
      isplitl [HS Hr Hg]
      · isplitl [HS]
        · unfold owns; iexists _; isplitr
          swap; · iexact HS
          ipureintro; exact View.read_writes_of_cover _ _ _ _ _ (acc1_mid_cover c _ _ _ _ _ _ _ _ _ _ _ _ _ _)
        isplitl [Hr]; · iexact Hr
        iexact Hg
      isplitl [Ho]; · iexact Ho
      isplitl [H0]; · iexact H0
      isplitl [H1]; · iexact H1
      iexists _; iexact H2

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the launch's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  refine .trans ?_ (PhiA1_join c)
  iintro ⟨HS, Hr, Hg⟩
  isplitl [HS]; · iexists _; iexact HS
  isplitl [Hr]; · iexact Hr
  iexact Hg

end

end Cert.Kernel.Hand

end
-- ==== Proof.KB.Compose.lean ====
/-
  The whole program, at any float instance: the contents of every unscoped buffer at each boundary of @main, and
  the run.

  @main is a stretch of host operations (the zero point taken off the weight, the casts, the bias as a row), then
  the first product's region, then the second's. The buffers' contents are folded through it: the launch memory;
  after the host stretch its operations' results; after a region its windows' arrays at what the region's
  write-backs leave (the inputs as entered) and every other buffer as entered. Each region is entered from the fold
  before it and left at the fold after it, so every weakly fair execution terminates with every unscoped buffer
  at the last fold — in particular the arguments as launched, and the result at what the second region leaves.
-/
import proofs.«170395_j57449482551364_2_alg».proof.Proof.KB.R0
import proofs.«170395_j57449482551364_2_alg».proof.Proof.KB.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region (the second region's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second region (the end). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- `main_arg0` ends as launched: the host stretch does not write it and it is no window's array of either region. -/
theorem W3_main_arg0 (c : Dev nD) : W3 m ρ c (Proc.devRef .tc main_arg0) = m ((c : Thread nD τ).loc main_arg0) :=
  (W3_of_ne m ρ c main_arg0 (by decide)).trans <| (W2_of_ne m ρ c main_arg0 (by decide)).trans <|
    (StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
/-- `main_arg1` ends as launched: the host stretch does not write it and it is no window's array of either region. -/
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <|
    (StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
/-- `main_arg2` ends as launched: the host stretch does not write it and it is no window's array of either region. -/
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans <|
    (StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
/-- `main_arg3` ends as launched: the host stretch does not write it and it is no window's array of either region. -/
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <|
    (StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
/-- `main_arg4` ends as launched: the host stretch does not write it and it is no window's array of either region. -/
theorem W3_main_arg4 (c : Dev nD) : W3 m ρ c (Proc.devRef .tc main_arg4) = m ((c : Thread nD τ).loc main_arg4) :=
  (W3_of_ne m ρ c main_arg4 (by decide)).trans <| (W2_of_ne m ρ c main_arg4 (by decide)).trans <|
    (StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- The result's buffer ends at what the second region's write-backs leave. -/
theorem W3_main_v8 (c : Dev nD) : W3 m ρ c (Proc.devRef .tc main_v8) = (dat1 (V2 m ρ) c).arrAt 2 cfg1.N :=
  W3_arr m ρ c 2

/-- The hidden layer's buffer, as the second region finds it, is what the first region's write-backs leave. -/
theorem V2_main_v7 (c : Dev nD) : V2 m ρ c main_v7 = (dat0 (V1 m ρ) c).arrAt 3 cfg0.N :=
  W2_arr m ρ c 3

/-- A buffer that is no window's array of the first region is, at the second region's entry, as the host stretch left it. -/
theorem V2_of_ne (c : Dev nD) (b : Ref sig .tc) (hb : ∀ w, Pipeline.arrRef spec0 w ≠ b) : V2 m ρ c b = V1 m ρ c b :=
  W2_of_ne m ρ c b hb

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the contents before it, left with its
    arrays at what its write-backs leave and every other buffer as entered. The generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its
    arrays at what its write-backs leave and every other buffer as entered. The generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting,
    and every unscoped buffer of every core ends at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.Kernel.Hand

end
-- ==== Proof.KI.R0Kit.lean ====
/-
  The first product's region, at any float instance: what its windows and its two branches are.

  The grid is 8 × 8 × 2, point t = (i, j, k) with k fastest. Window 0 is block (i, k) of the left operand
  [8192, 4096] in blocks of 1024 × 2048, window 1 block (j, k) of the right operand, window 2 block (0, j) of the
  bias row [1, 8192] in blocks of 1 × 1024, window 3 block (i, j) of the result [8192, 8192] in blocks of
  1024 × 1024. The body zeroes its accumulator when k = 0 (the even points), adds the block product into it at
  every point, and when k = 1 (the odd points) adds the bias, applies the activation and stores the result's
  block; the result's window is idle at the even points. An input's staging buffer holds its block of the array
  at every point, whether the block was fetched at that point or is still there from the point before.
-/
import proofs.«170395_j57449482551364_2_alg».proof.Proof.Gen.KernelIdeal.Launch
import proofs.«170395_j57449482551364_2_alg».proof.Proof.Gen.KernelIdeal.Skeleton
import proofs.«170395_j57449482551364_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of its array at point `t`, the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point. -/
theorem in0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The right operand's staging buffer holds its block at every point. -/
theorem in0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The bias row's staging buffer holds its block at every point (it is fetched at the even points only; at an odd
    point the block index has not moved). -/
theorem in0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

end

/-! ## The two branches -/

/-- "k = 0": the accumulator is zeroed. -/
abbrev cond0_0 (i : grid0.Coords) : Prop := (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- "k = 1": the result's block is stored. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- At an even point the result's window is idle: the body stores nothing into it. -/
theorem idle0_3_even : ∀ t : Fin cfg0.N, cond0_0 (grid0.coords t) → ¬cond0_1 (grid0.coords t) → cfg0.idle 3 (grid0.coords t) = true := by decide +kernel
/-- And its block is not written back there. -/
theorem noFlush0_3_even : ∀ t : Fin cfg0.N, cond0_0 (grid0.coords t) → ¬cond0_1 (grid0.coords t) → (cfg0.win 3).flush t = false := by decide +kernel
/-- At an odd point the result's window is live. -/
theorem live0_3_odd : ∀ t : Fin cfg0.N, ¬cond0_0 (grid0.coords t) → cond0_1 (grid0.coords t) → cfg0.idle 3 (grid0.coords t) = false := by decide +kernel

/-! ## The memrefs the body is called with -/

abbrev VO0_3 : View sig .tc .vmem S1024x1024 .bf16 := (Memref.whole cc0_stg3_0 : Memref sig .tc .vmem S1024x1024 .bf16).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a scoped buffer of the kernel's own, passed beside the windows. -/
abbrev scM0 : Memref sig .tc .vmem S1024x1024 .f32 := Memref.whole cc0_scratch0
abbrev VS0 : View sig .tc .vmem S1024x1024 .f32 := scM0.view

/-- The scoped buffers of the core that are neither this region's staging buffers nor its accumulator (they are the
    second region's), each held whole at something. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's invariant between points, with the accumulator split out as a memref owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

end Cert.KernelIdeal.Hand

end
-- ==== Proof.KI.R0RunE.lean ====
/-
  The first product's body at an even point (k = 0), run whole: from the two operand blocks in their staging
  buffers and the accumulator at anything, it stores zeros into the accumulator, reads them back, and stores the
  block product added to them; the operand buffers come back as they were, and the accumulator holds what the list
  of stores found by the run writes (the last store first). The bias and the result's buffer are not touched.
-/
import proofs.«170395_j57449482551364_2_alg».proof.Proof.KI.R0Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores an even point leaves in the accumulator, with the run that finds them. -/
noncomputable def run0_even (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : cond0_0 i) (hc1 : ¬cond0_1 i)
    (x0 : Vec F S1024x2048 .bf16) (x1 : Vec F S1024x2048 .bf16) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ (∃ d, owns (c : Thread nD τ) a7 fullShare d)
            ∗ (iprop(owns (c : Thread nD τ) a3 fullShare x0 ∗ owns (c : Thread nD τ) a4 fullShare x1 ∗ (∃ f, a7.view.loc (c : Thread nD τ) ↦[a7.view.set]{fullShare} a7.view.writes (Elt F) f LS)) -∗ K ⟨⟩))
          ⊢ wp frame (wpE (defs₀ (F := F)) Variants.none c none) E (cc0__mlp1_kernel i a3 h3 a4 h4 a5 h5 a6 h6 a7 h7) K } := by
  refine ⟨?_, fun E K => ?run⟩
  case run =>
    simp only [cc0__mlp1_kernel_eq_skeleton]; unfold cc0__mlp1_kernel_skel
    unfold owns
    iintro ⟨⟨%f0, %hf0, H0⟩, ⟨%f1, %hf1, H1⟩, ⟨%ds, %fs, -, HS⟩, Hk⟩
    obtain rfl := h3.eq_unread hf0; obtain rfl := h4.eq_unread hf1
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.KernelIdeal.Hand

end
-- ==== Proof.KI.R0RunO.lean ====
/-
  The first product's body at an odd point (k = 1), run whole: from the two operand blocks and the bias row in
  their staging buffers, the result's buffer at anything and the accumulator at what the point before left, it
  stores the block product added to the accumulator, reads that back, adds the bias to every row, applies the
  activation and stores the outcome into the result's buffer. The inputs come back as they were; the accumulator
  and the result's buffer hold what the lists of stores found by the run write.
-/
import proofs.«170395_j57449482551364_2_alg».proof.Proof.KI.R0Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores an odd point leaves in the result's buffer and in the accumulator, with the run that finds them. -/
noncomputable def run0_odd (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : ¬cond0_0 i) (hc1 : cond0_1 i)
    (x0 : Vec F S1024x2048 .bf16) (x1 : Vec F S1024x2048 .bf16) (x2 : Vec F S1x1024 .f32) (xs : Vec F S1024x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ (∃ d, owns (c : Thread nD τ) a6 fullShare d) ∗ owns (c : Thread nD τ) a7 fullShare xs
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L3)
                ∗ (∃ f, a7.view.loc (c : Thread nD τ) ↦[a7.view.set]{fullShare} a7.view.writes (Elt F) f LS)) -∗ K ⟨⟩))
          ⊢ wp frame (wpE (defs₀ (F := F)) Variants.none c none) E (cc0__mlp1_kernel i a3 h3 a4 h4 a5 h5 a6 h6 a7 h7) K } := by
  refine ⟨?_, ?_, fun E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h3.eq_unread hf0; obtain rfl := h4.eq_unread hf1; obtain rfl := h5.eq_unread hf2; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    iexists _; iexact HS

end Cert.KernelIdeal.Hand

end
-- ==== Proof.KI.R0.lean ====
/-
  The first product's region, at any float instance: its proof data and its body obligation.

  After the body at point t the accumulator holds, at an even point, what that point's stores write (zeros, then
  zeros plus the block product of the point's two operand blocks), and at an odd point what its store writes over
  what the even point before it left (that, plus the block product of this point's operand blocks); at an odd
  point the result's staging buffer holds what the body's store writes (the activation of the accumulator plus the
  bias row), at an even point it is idle. Between points the region's invariant keeps the accumulator at exactly
  these contents, beside the second region's scoped buffers and the generator register, which the body never
  touches. Each input's staging buffer holds its block of the array the region found.
-/
import proofs.«170395_j57449482551364_2_alg».proof.Proof.KI.R0RunE
import proofs.«170395_j57449482551364_2_alg».proof.Proof.KI.R0RunO

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point leaves -/

/-- An even point's accumulator: its stores read back. -/
def acc0_even (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : cond0_0 i) (hc1 : ¬cond0_1 i)
    (x0 : Vec F S1024x2048 .bf16) (x1 : Vec F S1024x2048 .bf16) : Vec F S1024x1024 .f32 :=
  VS0.read (Elt F) (VS0.writes (Elt F) VS0.junk (run0_even c i a3 h3 a4 h4 a5 h5 a6 h6 a7 h7 hc0 hc1 x0 x1).1)

/-- Those stores cover the accumulator. -/
theorem acc0_even_cover (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : cond0_0 i) (hc1 : ¬cond0_1 i)
    (x0 : Vec F S1024x2048 .bf16) (x1 : Vec F S1024x2048 .bf16) (y : S1024x1024.Idx) :
    ∃ pc ∈ (run0_even c i a3 h3 a4 h4 a5 h5 a6 h6 a7 h7 hc0 hc1 x0 x1).1, y ∈ pc.1.set :=
  View.cover_of_tiledL (run0_even c i a3 h3 a4 h4 a5 h5 a6 h6 a7 h7 hc0 hc1 x0 x1).1 S1024x1024.size (by sl_kernel_rfl) y

/-- An odd point's accumulator: its store read back. -/
def acc0_odd (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : ¬cond0_0 i) (hc1 : cond0_1 i)
    (x0 : Vec F S1024x2048 .bf16) (x1 : Vec F S1024x2048 .bf16) (x2 : Vec F S1x1024 .f32) (xs : Vec F S1024x1024 .f32) : Vec F S1024x1024 .f32 :=
  VS0.read (Elt F) (VS0.writes (Elt F) VS0.junk (run0_odd c i a3 h3 a4 h4 a5 h5 a6 h6 a7 h7 hc0 hc1 x0 x1 x2 xs).2.1)

theorem acc0_odd_cover (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : ¬cond0_0 i) (hc1 : cond0_1 i)
    (x0 : Vec F S1024x2048 .bf16) (x1 : Vec F S1024x2048 .bf16) (x2 : Vec F S1x1024 .f32) (xs : Vec F S1024x1024 .f32) (y : S1024x1024.Idx) :
    ∃ pc ∈ (run0_odd c i a3 h3 a4 h4 a5 h5 a6 h6 a7 h7 hc0 hc1 x0 x1 x2 xs).2.1, y ∈ pc.1.set :=
  View.cover_of_tiledL (run0_odd c i a3 h3 a4 h4 a5 h5 a6 h6 a7 h7 hc0 hc1 x0 x1 x2 xs).2.1 S1024x1024.size (by sl_kernel_rfl) y

/-- An odd point's result block: its store read back. -/
def out0_odd (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : ¬cond0_0 i) (hc1 : cond0_1 i)
    (x0 : Vec F S1024x2048 .bf16) (x1 : Vec F S1024x2048 .bf16) (x2 : Vec F S1x1024 .f32) (xs : Vec F S1024x1024 .f32) : Vec F S1024x1024 .bf16 :=
  VO0_3.read (Elt F) (VO0_3.writes (Elt F) VO0_3.junk (run0_odd c i a3 h3 a4 h4 a5 h5 a6 h6 a7 h7 hc0 hc1 x0 x1 x2 xs).1)

theorem out0_odd_cover (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : ¬cond0_0 i) (hc1 : cond0_1 i)
    (x0 : Vec F S1024x2048 .bf16) (x1 : Vec F S1024x2048 .bf16) (x2 : Vec F S1x1024 .f32) (xs : Vec F S1024x1024 .f32) (y : S1024x1024.Idx) :
    ∃ pc ∈ (run0_odd c i a3 h3 a4 h4 a5 h5 a6 h6 a7 h7 hc0 hc1 x0 x1 x2 xs).1, y ∈ pc.1.set :=
  View.cover_of_tiledL (run0_odd c i a3 h3 a4 h4 a5 h5 a6 h6 a7 h7 hc0 hc1 x0 x1 x2 xs).1 S1024x1024.size (by sl_kernel_rfl) y

theorem even_c0 (t : Fin cfg0.N) (h : t.val % 2 = 0) : cond0_0 (grid0.coords t) := (hcond0_0 t).mpr h
theorem even_c1 (t : Fin cfg0.N) (h : t.val % 2 = 0) : ¬cond0_1 (grid0.coords t) := fun hh => by have := (hcond0_1 t).mp hh; omega
theorem odd_c0 (t : Fin cfg0.N) (h : t.val % 2 = 1) : ¬cond0_0 (grid0.coords t) := fun hh => by have := (hcond0_0 t).mp hh; omega
theorem odd_c1 (t : Fin cfg0.N) (h : t.val % 2 = 1) : cond0_1 (grid0.coords t) := (hcond0_1 t).mpr h

section
variable (V : (c : Dev nD) → (b : Ref sig .tc) → Buf (Elt F) ((c : Thread nD τ).loc b))

/-- What an even point leaves: the result's buffer idle (a placeholder nothing consults), the accumulator at the
    point's stores over its two operand blocks. -/
def evenPt (c : Dev nD) (t : Fin cfg0.N) (h : t.val % 2 = 0) : Vec F S1024x1024 .bf16 × Vec F S1024x1024 .f32 :=
  (VO0_3.read (Elt F) (VO0_3.writes (Elt F) VO0_3.junk []),
   acc0_even c (grid0.coords t) (ms0_0 t) (hs0_0 t) (ms0_1 t) (hs0_1 t) (ms0_2 t) (hs0_2 t) (ms0_3 t) (hs0_3 t) scM0 (Memref.isWhole_whole _) (even_c0 t h) (even_c1 t h) (blk0 V c 0 t) (blk0 V c 1 t))

/-- What an odd point leaves over the accumulator `xs` it finds. -/
def oddPt (c : Dev nD) (t : Fin cfg0.N) (h : t.val % 2 = 1) (xs : Vec F S1024x1024 .f32) : Vec F S1024x1024 .bf16 × Vec F S1024x1024 .f32 :=
  (out0_odd c (grid0.coords t) (ms0_0 t) (hs0_0 t) (ms0_1 t) (hs0_1 t) (ms0_2 t) (hs0_2 t) (ms0_3 t) (hs0_3 t) scM0 (Memref.isWhole_whole _) (odd_c0 t h) (odd_c1 t h) (blk0 V c 0 t) (blk0 V c 1 t) (blk0 V c 2 t) xs,
   acc0_odd c (grid0.coords t) (ms0_0 t) (hs0_0 t) (ms0_1 t) (hs0_1 t) (ms0_2 t) (hs0_2 t) (ms0_3 t) (hs0_3 t) scM0 (Memref.isWhole_whole _) (odd_c0 t h) (odd_c1 t h) (blk0 V c 0 t) (blk0 V c 1 t) (blk0 V c 2 t) xs)

/-- What the result's staging buffer and the accumulator hold after the body at position `n`. -/
def outsAt0 (c : Dev nD) : (n : ℕ) → n < cfg0.N → Vec F S1024x1024 .bf16 × Vec F S1024x1024 .f32
  | 0, hn => evenPt V c ⟨0, hn⟩ (Nat.zero_mod _)
  | n + 1, hn =>
    if h : (n + 1) % 2 = 0 then evenPt V c ⟨n + 1, hn⟩ h
    else oddPt V c ⟨n + 1, hn⟩ (by show (n + 1) % 2 = 1; omega) (outsAt0 c n (Nat.lt_of_succ_lt hn)).2

theorem outsAt0_even (c : Dev nD) (t : Fin cfg0.N) (h : t.val % 2 = 0) : outsAt0 V c t.val t.isLt = evenPt V c t h := by
  obtain ⟨n, hn⟩ := t
  cases n with
  | zero => exact rfl
  | succ n => exact (dif_pos h).trans rfl

theorem outsAt0_odd (c : Dev nD) (t : Fin cfg0.N) (h : t.val % 2 = 1) :
    outsAt0 V c t.val t.isLt = oddPt V c t h (outsAt0 V c (t.val - 1) (Nat.lt_of_le_of_lt (Nat.sub_le _ _) t.isLt)).2 := by
  obtain ⟨n, hn⟩ := t
  cases n with
  | zero => exact absurd (show 0 % 2 = 1 from h) (by decide)
  | succ n => exact (dif_neg (by have h' : (n + 1) % 2 = 1 := h; omega)).trans rfl

/-! ## The invariant between points -/

/-- Before the first point the launch's invariant; before any other the accumulator at what the point before left,
    the second region's scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

/-- The arrays as the region finds them; after the body each input's buffer at its block and the result's at
    `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = blk0 V c 0 t :=
  in0_0_of V (dat0 V c) (A_eq0 V c 0) (after0_0 V c) t d
theorem before0_1 (c : Dev nD) (t : Fin cfg0.N) (d) : (dat0 V c).before 1 t d = blk0 V c 1 t :=
  in0_1_of V (dat0 V c) (A_eq0 V c 1) (after0_1 V c) t d
theorem before0_2 (c : Dev nD) (t : Fin cfg0.N) (d) : (dat0 V c).before 2 t d = blk0 V c 2 t :=
  in0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the point's parity says which run applies; the
    invariant hands the body the accumulator (at anything before the first point, at what the point before left
    afterwards) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 128 := lt_of_lt_of_eq t.isLt (show cfg0.N = 128 from N_0)
  by_cases h0 : t.val % 2 = 0
  · rw [Dat.leavesExact_idle (dat0 V c) 3 t (idle0_3_even t (even_c0 t h0) (even_c1 t h0)) (noFlush0_3_even t (even_c0 t h0) (even_c1 t h0))]
    rw [outsAt0_even V c t h0]
    unfold evenPt acc0_even; (try dsimp only)
    by_cases hz : t.val = 0
    · rw [Phi0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩⟩
      iapply ((run0_even c (grid0.coords t) _ _ _ _ _ _ _ _ _ _ (even_c0 t h0) (even_c1 t h0) (blk0 V c 0 t) (blk0 V c 1 t)).2 Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (acc0_even_cover c _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [Phi0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply ((run0_even c (grid0.coords t) _ _ _ _ _ _ _ _ _ _ (even_c0 t h0) (even_c1 t h0) (blk0 V c 0 t) (blk0 V c 1 t)).2 Set.univ _)
      isplitl [H0]; · iexact H0
      isplitl [H1]; · iexact H1
      isplitl [HS]; · iexists _; iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (acc0_even_cover c _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have h1 : t.val % 2 = 1 := by omega
    rw [show (dat0 V c).leavesExact 3 t = owns (c : Thread nD τ) (ms0_3 t) fullShare ((dat0 V c).after 3 t) from by
      unfold Dat.leavesExact; rw [live0_3_odd t (odd_c0 t h1) (odd_c1 t h1)], after0_3]
    rw [outsAt0_odd V c t h1]
    unfold oddPt out0_odd acc0_odd; (try dsimp only)
    have hz : t.val ≠ 0 := by omega
    rw [Phi0_castSucc V c t, PhiS0_pos V c _ _ hz]
    iintro ⟨⟨⟨HS, Hr⟩, Hg⟩, Ho, ⟨%d0, H0⟩, ⟨%d1, H1⟩, ⟨%d2, H2⟩, ⟨%d3, H3⟩⟩
    iapply ((run0_odd c (grid0.coords t) _ _ _ _ _ _ _ _ _ _ (odd_c0 t h1) (odd_c1 t h1) (blk0 V c 0 t) (blk0 V c 1 t) (blk0 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hr Hg]
    · isplitl [HS Hr]
      · isplitl [HS]
        · unfold owns; iexists _; isplitr
          swap; · iexact HS
          ipureintro; exact View.read_writes_of_cover _ _ _ _ _ (acc0_odd_cover c _ _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (out0_odd_cover c _ _ _ _ _ _ _ _ _ _ _ _ _ _ _ _ _)

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the launch's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, Hr⟩, Hg⟩
  isplitl [HS Hr]
  · isplitl [HS]; · iexists _; iexact HS
    iexact Hr
  iexact Hg

end

end Cert.KernelIdeal.Hand

end
-- ==== Proof.KI.R1Kit.lean ====
/-
  The second product's region, at any float instance: what its windows and its two branches are.

  The grid is 8 × 4 × 4, point t = (i, j, k) with k fastest. Window 0 is block (i, k) of the hidden layer
  [8192, 8192] in blocks of 1024 × 2048, window 1 block (j, k) of the second weight [4096, 8192], window 2 block
  (i, j) of the result [8192, 4096] in blocks of 1024 × 1024. The body zeroes its accumulator when k = 0 (the points
  ≡ 0 mod 4), adds the block product into it at every point, and when k = 3 (the points ≡ 3 mod 4) copies the
  accumulator into the result's block; the result's window is idle at the other points.
-/
import proofs.«170395_j57449482551364_2_alg».proof.Proof.Gen.KernelIdeal.Launch
import proofs.«170395_j57449482551364_2_alg».proof.Proof.Gen.KernelIdeal.Skeleton
import proofs.«170395_j57449482551364_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of its array at point `t`, the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden layer's staging buffer holds its block at every point. -/
theorem in1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The second weight's staging buffer holds its block at every point. -/
theorem in1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

end

/-! ## The two branches -/

/-- "k = 0": the accumulator is zeroed. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the result's block is stored. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Where the result's block is not stored its window is idle, -/
theorem idle1_2_first : ∀ t : Fin cfg1.N, cond1_0 (grid1.coords t) → ¬cond1_1 (grid1.coords t) → cfg1.idle 2 (grid1.coords t) = true := by decide +kernel
theorem idle1_2_mid : ∀ t : Fin cfg1.N, ¬cond1_0 (grid1.coords t) → ¬cond1_1 (grid1.coords t) → cfg1.idle 2 (grid1.coords t) = true := by decide +kernel
/-- and not written back. -/
theorem noFlush1_2_first : ∀ t : Fin cfg1.N, cond1_0 (grid1.coords t) → ¬cond1_1 (grid1.coords t) → (cfg1.win 2).flush t = false := by decide +kernel
theorem noFlush1_2_mid : ∀ t : Fin cfg1.N, ¬cond1_0 (grid1.coords t) → ¬cond1_1 (grid1.coords t) → (cfg1.win 2).flush t = false := by decide +kernel
/-- Where it is stored the window is live. -/
theorem live1_2_last : ∀ t : Fin cfg1.N, ¬cond1_0 (grid1.coords t) → cond1_1 (grid1.coords t) → cfg1.idle 2 (grid1.coords t) = false := by decide +kernel

/-! ## The memrefs the body is called with -/

abbrev VO1_2 : View sig .tc .vmem S1024x1024 .f32 := (Memref.whole cc1_stg2_0 : Memref sig .tc .vmem S1024x1024 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The accumulator: a scoped buffer of the kernel's own, passed beside the windows. -/
abbrev scM1 : Memref sig .tc .vmem S1024x1024 .f32 := Memref.whole cc1_scratch0
abbrev VS1 : View sig .tc .vmem S1024x1024 .f32 := scM1.view

/-- The scoped buffers of the core that are neither this region's staging buffers nor its accumulator (they are the
    first region's), each held whole at something. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The region's invariant between points gives the accumulator at some contents, the first region's buffers and the
    generator register. -/
theorem PhiA1_split (c : Dev nD) :
    (Pipeline.ΦA spec1 c : sProp 𝕄)
      ⊢ iprop((∃ d, owns (c : Thread nD τ) scM1 fullShare d) ∗ rest1 c ∗ (∃ r, prngReg c r)) := by
  unfold Pipeline.ΦA rest1; rw [scopedRest1_eq]; simp only [scM1, owns_whole]
  iintro ⟨⟨B0, B1, B2, B3, B4, B5, B6, B7, B8, HS⟩, Hg⟩
  isplitl [HS]; · iexact HS
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hg

/-- And takes them back. -/
theorem PhiA1_join (c : Dev nD) :
    iprop((∃ d, owns (c : Thread nD τ) scM1 fullShare d) ∗ rest1 c ∗ (∃ r, prngReg c r))
      ⊢ (Pipeline.ΦA spec1 c : sProp 𝕄) := by
  unfold Pipeline.ΦA rest1; rw [scopedRest1_eq]; simp only [scM1, owns_whole]
  iintro ⟨HS, ⟨B0, B1, B2, B3, B4, B5, B6, B7, B8⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact HS
  iexact Hg

end Cert.KernelIdeal.Hand

end
-- ==== Proof.KI.R1RunF.lean ====
/-
  The second product's body at a first point (k = 0), run whole: from the two operand blocks in their staging
  buffers and the accumulator at anything, it stores zeros into the accumulator, reads them back, and stores the
  block product added to them; the operand buffers come back as they were, and the accumulator holds what the list
  of stores found by the run writes (the last store first). The result's buffer is not touched.
-/
import proofs.«170395_j57449482551364_2_alg».proof.Proof.KI.R1Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores a first point leaves in the accumulator, with the run that finds them. -/
noncomputable def run1_first (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : cond1_0 i) (hc1 : ¬cond1_1 i)
    (x0 : Vec F S1024x2048 .bf16) (x1 : Vec F S1024x2048 .bf16) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ (∃ d, owns (c : Thread nD τ) a6 fullShare d)
            ∗ (iprop(owns (c : Thread nD τ) a3 fullShare x0 ∗ owns (c : Thread nD τ) a4 fullShare x1 ∗ (∃ f, a6.view.loc (c : Thread nD τ) ↦[a6.view.set]{fullShare} a6.view.writes (Elt F) f LS)) -∗ K ⟨⟩))
          ⊢ wp frame (wpE (defs₀ (F := F)) Variants.none c none) E (cc1__mlp2_kernel i a3 h3 a4 h4 a5 h5 a6 h6) K } := by
  refine ⟨?_, fun E K => ?run⟩
  case run =>
    simp only [cc1__mlp2_kernel_eq_skeleton]; unfold cc1__mlp2_kernel_skel
    unfold owns
    iintro ⟨⟨%f0, %hf0, H0⟩, ⟨%f1, %hf1, H1⟩, ⟨%ds, %fs, -, HS⟩, Hk⟩
    obtain rfl := h3.eq_unread hf0; obtain rfl := h4.eq_unread hf1
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.KernelIdeal.Hand

end
-- ==== Proof.KI.R1RunM.lean ====
/-
  The second product's body at a middle point (k = 1 or 2), run whole: from the two operand blocks in their
  staging buffers and the accumulator at what the point before left, it stores the block product added to the
  accumulator; the operand buffers come back as they were, and the accumulator holds what the list of stores found
  by the run writes. The result's buffer is not touched.
-/
import proofs.«170395_j57449482551364_2_alg».proof.Proof.KI.R1Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores a middle point leaves in the accumulator, with the run that finds them. -/
noncomputable def run1_mid (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : ¬cond1_1 i)
    (x0 : Vec F S1024x2048 .bf16) (x1 : Vec F S1024x2048 .bf16) (xs : Vec F S1024x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a6 fullShare xs
            ∗ (iprop(owns (c : Thread nD τ) a3 fullShare x0 ∗ owns (c : Thread nD τ) a4 fullShare x1 ∗ (∃ f, a6.view.loc (c : Thread nD τ) ↦[a6.view.set]{fullShare} a6.view.writes (Elt F) f LS)) -∗ K ⟨⟩))
          ⊢ wp frame (wpE (defs₀ (F := F)) Variants.none c none) E (cc1__mlp2_kernel i a3 h3 a4 h4 a5 h5 a6 h6) K } := by
  refine ⟨?_, fun E K => ?run⟩
  case run =>
    simp only [cc1__mlp2_kernel_eq_skeleton]; unfold cc1__mlp2_kernel_skel
    unfold owns
    iintro ⟨⟨%f0, %hf0, H0⟩, ⟨%f1, %hf1, H1⟩, ⟨%fs, %hfs, HS⟩, Hk⟩
    obtain rfl := h3.eq_unread hf0; obtain rfl := h4.eq_unread hf1; obtain rfl := h6.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.KernelIdeal.Hand

end
-- ==== Proof.KI.R1RunL.lean ====
/-
  The second product's body at a last point (k = 3), run whole: from the two operand blocks in their staging
  buffers, the result's buffer at anything and the accumulator at what the point before left, it stores the block
  product added to the accumulator, reads that back and stores it, unchanged, into the result's buffer. The operand
  buffers come back as they were; the result's buffer and the accumulator hold what the lists of stores found by
  the run write.
-/
import proofs.«170395_j57449482551364_2_alg».proof.Proof.KI.R1Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores a last point leaves in the result's buffer and in the accumulator, with the run that finds them. -/
noncomputable def run1_last (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : cond1_1 i)
    (x0 : Vec F S1024x2048 .bf16) (x1 : Vec F S1024x2048 .bf16) (xs : Vec F S1024x1024 .f32) :
    Σ' (L2 : List (View.Piece (Elt F) S1024x1024 .f32)), { LS : List (View.Piece (Elt F) S1024x1024 .f32) //
      ∀ (E : Set ℕ) (K : PUnit → sProp 𝕄),
        iprop(owns (c : Thread nD τ) a3 fullShare x0 ∗ owns (c : Thread nD τ) a4 fullShare x1
            ∗ (∃ d, owns (c : Thread nD τ) a5 fullShare d) ∗ owns (c : Thread nD τ) a6 fullShare xs
            ∗ (iprop(owns (c : Thread nD τ) a3 fullShare x0 ∗ owns (c : Thread nD τ) a4 fullShare x1
                ∗ (∃ f, a5.view.loc (c : Thread nD τ) ↦[a5.view.set]{fullShare} a5.view.writes (Elt F) f L2)
                ∗ (∃ f, a6.view.loc (c : Thread nD τ) ↦[a6.view.set]{fullShare} a6.view.writes (Elt F) f LS)) -∗ K ⟨⟩))
          ⊢ wp frame (wpE (defs₀ (F := F)) Variants.none c none) E (cc1__mlp2_kernel i a3 h3 a4 h4 a5 h5 a6 h6) K } := by
  refine ⟨?_, ?_, fun E K => ?run⟩
  case run =>
    simp only [cc1__mlp2_kernel_eq_skeleton]; unfold cc1__mlp2_kernel_skel
    unfold owns
    iintro ⟨⟨%f0, %hf0, H0⟩, ⟨%f1, %hf1, H1⟩, ⟨%d2, %f2, -, H2⟩, ⟨%fs, %hfs, HS⟩, Hk⟩
    obtain rfl := h3.eq_unread hf0; obtain rfl := h4.eq_unread hf1; obtain rfl := h6.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]; · iexists _; iexact H2
    iexists _; iexact HS

end Cert.KernelIdeal.Hand

end
-- ==== Proof.KI.R1.lean ====
/-
  The second product's region, at any float instance: its proof data and its body obligation.

  The points come in groups of four (k = 0, 1, 2, 3). After the body at the first point of a group the accumulator
  holds what that point's stores write (zeros, then zeros plus the block product of the point's operand blocks); at
  each later point what its store writes over what the point before left (that, plus this point's block product);
  at the last point of the group the result's staging buffer receives the accumulator, and at the other points it
  is idle. Between points the invariant keeps the accumulator at exactly these contents, beside the first region's
  scoped buffers and the generator register, which the body never touches.
-/
import proofs.«170395_j57449482551364_2_alg».proof.Proof.KI.R1RunF
import proofs.«170395_j57449482551364_2_alg».proof.Proof.KI.R1RunM
import proofs.«170395_j57449482551364_2_alg».proof.Proof.KI.R1RunL

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point leaves -/

def acc1_first (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : cond1_0 i) (hc1 : ¬cond1_1 i)
    (x0 : Vec F S1024x2048 .bf16) (x1 : Vec F S1024x2048 .bf16) : Vec F S1024x1024 .f32 :=
  VS1.read (Elt F) (VS1.writes (Elt F) VS1.junk (run1_first c i a3 h3 a4 h4 a5 h5 a6 h6 hc0 hc1 x0 x1).1)

theorem acc1_first_cover (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : cond1_0 i) (hc1 : ¬cond1_1 i)
    (x0 : Vec F S1024x2048 .bf16) (x1 : Vec F S1024x2048 .bf16) (y : S1024x1024.Idx) :
    ∃ pc ∈ (run1_first c i a3 h3 a4 h4 a5 h5 a6 h6 hc0 hc1 x0 x1).1, y ∈ pc.1.set :=
  View.cover_of_tiledL (run1_first c i a3 h3 a4 h4 a5 h5 a6 h6 hc0 hc1 x0 x1).1 S1024x1024.size (by sl_kernel_rfl) y

def acc1_mid (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : ¬cond1_1 i)
    (x0 : Vec F S1024x2048 .bf16) (x1 : Vec F S1024x2048 .bf16) (xs : Vec F S1024x1024 .f32) : Vec F S1024x1024 .f32 :=
  VS1.read (Elt F) (VS1.writes (Elt F) VS1.junk (run1_mid c i a3 h3 a4 h4 a5 h5 a6 h6 hc0 hc1 x0 x1 xs).1)

theorem acc1_mid_cover (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : ¬cond1_1 i)
    (x0 : Vec F S1024x2048 .bf16) (x1 : Vec F S1024x2048 .bf16) (xs : Vec F S1024x1024 .f32) (y : S1024x1024.Idx) :
    ∃ pc ∈ (run1_mid c i a3 h3 a4 h4 a5 h5 a6 h6 hc0 hc1 x0 x1 xs).1, y ∈ pc.1.set :=
  View.cover_of_tiledL (run1_mid c i a3 h3 a4 h4 a5 h5 a6 h6 hc0 hc1 x0 x1 xs).1 S1024x1024.size (by sl_kernel_rfl) y

def acc1_last (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : cond1_1 i)
    (x0 : Vec F S1024x2048 .bf16) (x1 : Vec F S1024x2048 .bf16) (xs : Vec F S1024x1024 .f32) : Vec F S1024x1024 .f32 :=
  VS1.read (Elt F) (VS1.writes (Elt F) VS1.junk (run1_last c i a3 h3 a4 h4 a5 h5 a6 h6 hc0 hc1 x0 x1 xs).2.1)

theorem acc1_last_cover (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : cond1_1 i)
    (x0 : Vec F S1024x2048 .bf16) (x1 : Vec F S1024x2048 .bf16) (xs : Vec F S1024x1024 .f32) (y : S1024x1024.Idx) :
    ∃ pc ∈ (run1_last c i a3 h3 a4 h4 a5 h5 a6 h6 hc0 hc1 x0 x1 xs).2.1, y ∈ pc.1.set :=
  View.cover_of_tiledL (run1_last c i a3 h3 a4 h4 a5 h5 a6 h6 hc0 hc1 x0 x1 xs).2.1 S1024x1024.size (by sl_kernel_rfl) y

def out1_last (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : cond1_1 i)
    (x0 : Vec F S1024x2048 .bf16) (x1 : Vec F S1024x2048 .bf16) (xs : Vec F S1024x1024 .f32) : Vec F S1024x1024 .f32 :=
  VO1_2.read (Elt F) (VO1_2.writes (Elt F) VO1_2.junk (run1_last c i a3 h3 a4 h4 a5 h5 a6 h6 hc0 hc1 x0 x1 xs).1)

theorem out1_last_cover (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : cond1_1 i)
    (x0 : Vec F S1024x2048 .bf16) (x1 : Vec F S1024x2048 .bf16) (xs : Vec F S1024x1024 .f32) (y : S1024x1024.Idx) :
    ∃ pc ∈ (run1_last c i a3 h3 a4 h4 a5 h5 a6 h6 hc0 hc1 x0 x1 xs).1, y ∈ pc.1.set :=
  View.cover_of_tiledL (run1_last c i a3 h3 a4 h4 a5 h5 a6 h6 hc0 hc1 x0 x1 xs).1 S1024x1024.size (by sl_kernel_rfl) y

theorem first_c0 (t : Fin cfg1.N) (h : t.val % 4 = 0) : cond1_0 (grid1.coords t) := (hcond1_0 t).mpr h
theorem first_c1 (t : Fin cfg1.N) (h : t.val % 4 = 0) : ¬cond1_1 (grid1.coords t) := fun hh => by have := (hcond1_1 t).mp hh; omega
theorem mid_c0 (t : Fin cfg1.N) (h : ¬t.val % 4 = 0) : ¬cond1_0 (grid1.coords t) := fun hh => h ((hcond1_0 t).mp hh)
theorem mid_c1 (t : Fin cfg1.N) (h : ¬t.val % 4 = 3) : ¬cond1_1 (grid1.coords t) := fun hh => h ((hcond1_1 t).mp hh)
theorem last_c0 (t : Fin cfg1.N) (h : t.val % 4 = 3) : ¬cond1_0 (grid1.coords t) := fun hh => by have := (hcond1_0 t).mp hh; omega
theorem last_c1 (t : Fin cfg1.N) (h : t.val % 4 = 3) : cond1_1 (grid1.coords t) := (hcond1_1 t).mpr h

section
variable (V : (c : Dev nD) → (b : Ref sig .tc) → Buf (Elt F) ((c : Thread nD τ).loc b))

/-- The first point of a group: the result's buffer idle (a placeholder nothing consults), the accumulator at the
    point's stores over its two operand blocks. -/
def firstPt (c : Dev nD) (t : Fin cfg1.N) (h : t.val % 4 = 0) : Vec F S1024x1024 .f32 × Vec F S1024x1024 .f32 :=
  (VO1_2.read (Elt F) (VO1_2.writes (Elt F) VO1_2.junk []),
   acc1_first c (grid1.coords t) (ms1_0 t) (hs1_0 t) (ms1_1 t) (hs1_1 t) (ms1_2 t) (hs1_2 t) scM1 (Memref.isWhole_whole _) (first_c0 t h) (first_c1 t h) (blk1 V c 0 t) (blk1 V c 1 t))

/-- A middle point, over the accumulator `xs` it finds. -/
def midPt (c : Dev nD) (t : Fin cfg1.N) (h0 : ¬t.val % 4 = 0) (h3 : ¬t.val % 4 = 3) (xs : Vec F S1024x1024 .f32) : Vec F S1024x1024 .f32 × Vec F S1024x1024 .f32 :=
  (VO1_2.read (Elt F) (VO1_2.writes (Elt F) VO1_2.junk []),
   acc1_mid c (grid1.coords t) (ms1_0 t) (hs1_0 t) (ms1_1 t) (hs1_1 t) (ms1_2 t) (hs1_2 t) scM1 (Memref.isWhole_whole _) (mid_c0 t h0) (mid_c1 t h3) (blk1 V c 0 t) (blk1 V c 1 t) xs)

/-- The last point of a group, over the accumulator `xs` it finds. -/
def lastPt (c : Dev nD) (t : Fin cfg1.N) (h : t.val % 4 = 3) (xs : Vec F S1024x1024 .f32) : Vec F S1024x1024 .f32 × Vec F S1024x1024 .f32 :=
  (out1_last c (grid1.coords t) (ms1_0 t) (hs1_0 t) (ms1_1 t) (hs1_1 t) (ms1_2 t) (hs1_2 t) scM1 (Memref.isWhole_whole _) (last_c0 t h) (last_c1 t h) (blk1 V c 0 t) (blk1 V c 1 t) xs,
   acc1_last c (grid1.coords t) (ms1_0 t) (hs1_0 t) (ms1_1 t) (hs1_1 t) (ms1_2 t) (hs1_2 t) scM1 (Memref.isWhole_whole _) (last_c0 t h) (last_c1 t h) (blk1 V c 0 t) (blk1 V c 1 t) xs)

/-- What the result's staging buffer and the accumulator hold after the body at position `n`. -/
def outsAt1 (c : Dev nD) : (n : ℕ) → n < cfg1.N → Vec F S1024x1024 .f32 × Vec F S1024x1024 .f32
  | 0, hn => firstPt V c ⟨0, hn⟩ (Nat.zero_mod _)
  | n + 1, hn =>
    if h0 : (n + 1) % 4 = 0 then firstPt V c ⟨n + 1, hn⟩ h0
    else if h3 : (n + 1) % 4 = 3 then lastPt V c ⟨n + 1, hn⟩ h3 (outsAt1 c n (Nat.lt_of_succ_lt hn)).2
    else midPt V c ⟨n + 1, hn⟩ h0 h3 (outsAt1 c n (Nat.lt_of_succ_lt hn)).2

theorem outsAt1_first (c : Dev nD) (t : Fin cfg1.N) (h : t.val % 4 = 0) : outsAt1 V c t.val t.isLt = firstPt V c t h := by
  obtain ⟨n, hn⟩ := t
  cases n with
  | zero => exact rfl
  | succ n => exact (dif_pos h).trans rfl

theorem outsAt1_mid (c : Dev nD) (t : Fin cfg1.N) (h0 : ¬t.val % 4 = 0) (h3 : ¬t.val % 4 = 3) :
    outsAt1 V c t.val t.isLt = midPt V c t h0 h3 (outsAt1 V c (t.val - 1) (Nat.lt_of_le_of_lt (Nat.sub_le _ _) t.isLt)).2 := by
  obtain ⟨n, hn⟩ := t
  cases n with
  | zero => exact absurd (Nat.zero_mod 4) h0
  | succ n => exact (dif_neg h0).trans ((dif_neg h3).trans rfl)

theorem outsAt1_last (c : Dev nD) (t : Fin cfg1.N) (h : t.val % 4 = 3) :
    outsAt1 V c t.val t.isLt = lastPt V c t h (outsAt1 V c (t.val - 1) (Nat.lt_of_le_of_lt (Nat.sub_le _ _) t.isLt)).2 := by
  obtain ⟨n, hn⟩ := t
  cases n with
  | zero => exact absurd (show 0 % 4 = 3 from h) (by decide)
  | succ n => exact (dif_neg (by have h' : (n + 1) % 4 = 3 := h; omega)).trans ((dif_pos h).trans rfl)

/-! ## The invariant between points -/

def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ rest1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare ((outsAt1 V c n hn).2) ∗ rest1 c ∗ (∃ r, prngReg c r)) := rfl

theorem PhiS1_pos (c : Dev nD) (n : ℕ) (h : n ≤ cfg1.N) (hz : n ≠ 0) :
    PhiS1 V c n h = iprop(owns (c : Thread nD τ) scM1 fullShare ((outsAt1 V c (n - 1) (by omega)).2) ∗ rest1 c ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = blk1 V c 0 t :=
  in1_0_of V (dat1 V c) (A_eq1 V c 0) (after1_0 V c) t d
theorem before1_1 (c : Dev nD) (t : Fin cfg1.N) (d) : (dat1 V c).before 1 t d = blk1 V c 1 t :=
  in1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's place in its group says which run
    applies; the invariant hands the body the accumulator and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 128 := lt_of_lt_of_eq t.isLt (show cfg1.N = 128 from N_1)
  by_cases h0 : t.val % 4 = 0
  · rw [Dat.leavesExact_idle (dat1 V c) 2 t (idle1_2_first t (first_c0 t h0) (first_c1 t h0)) (noFlush1_2_first t (first_c0 t h0) (first_c1 t h0))]
    rw [outsAt1_first V c t h0]
    unfold firstPt acc1_first; (try dsimp only)
    by_cases hz : t.val = 0
    · rw [Phi1_castSucc V c t, PhiS1_zero V c _ _ hz]
      iintro ⟨HΦ, Ho, ⟨%d0, H0⟩, ⟨%d1, H1⟩, ⟨%d2, H2⟩⟩
      ihave HΦ' := (PhiA1_split c) $$ HΦ
      icases HΦ' with ⟨HS, Hr, Hg⟩
      iapply ((run1_first c (grid1.coords t) _ _ _ _ _ _ _ _ (first_c0 t h0) (first_c1 t h0) (blk1 V c 0 t) (blk1 V c 1 t)).2 Set.univ _)
      isplitl [H0]; · iexact H0
      isplitl [H1]; · iexact H1
      isplitl [HS]; · iexact HS
      iintro ⟨H0, H1, ⟨%es, HS⟩⟩
      isplitl [HS Hr Hg]
      · isplitl [HS]
        · unfold owns; iexists _; isplitr
          swap; · iexact HS
          ipureintro; exact View.read_writes_of_cover _ _ _ _ _ (acc1_first_cover c _ _ _ _ _ _ _ _ _ _ _ _ _)
        isplitl [Hr]; · iexact Hr
        iexact Hg
      isplitl [Ho]; · iexact Ho
      isplitl [H0]; · iexact H0
      isplitl [H1]; · iexact H1
      iexists _; iexact H2
    · rw [Phi1_castSucc V c t, PhiS1_pos V c _ _ hz]
      iintro ⟨⟨HS, Hr, Hg⟩, Ho, ⟨%d0, H0⟩, ⟨%d1, H1⟩, ⟨%d2, H2⟩⟩
      iapply ((run1_first c (grid1.coords t) _ _ _ _ _ _ _ _ (first_c0 t h0) (first_c1 t h0) (blk1 V c 0 t) (blk1 V c 1 t)).2 Set.univ _)
      isplitl [H0]; · iexact H0
      isplitl [H1]; · iexact H1
      isplitl [HS]; · iexists _; iexact HS
      iintro ⟨H0, H1, ⟨%es, HS⟩⟩
      isplitl [HS Hr Hg]
      · isplitl [HS]
        · unfold owns; iexists _; isplitr
          swap; · iexact HS
          ipureintro; exact View.read_writes_of_cover _ _ _ _ _ (acc1_first_cover c _ _ _ _ _ _ _ _ _ _ _ _ _)
        isplitl [Hr]; · iexact Hr
        iexact Hg
      isplitl [Ho]; · iexact Ho
      isplitl [H0]; · iexact H0
      isplitl [H1]; · iexact H1
      iexists _; iexact H2
  · have hz : t.val ≠ 0 := fun e => h0 (by rw [e])
    by_cases h3 : t.val % 4 = 3
    · rw [show (dat1 V c).leavesExact 2 t = owns (c : Thread nD τ) (ms1_2 t) fullShare ((dat1 V c).after 2 t) from by
        unfold Dat.leavesExact; rw [live1_2_last t (last_c0 t h3) (last_c1 t h3)], after1_2]
      rw [outsAt1_last V c t h3]
      unfold lastPt out1_last acc1_last; (try dsimp only)
      rw [Phi1_castSucc V c t, PhiS1_pos V c _ _ hz]
      iintro ⟨⟨HS, Hr, Hg⟩, Ho, ⟨%d0, H0⟩, ⟨%d1, H1⟩, ⟨%d2, H2⟩⟩
      iapply ((run1_last c (grid1.coords t) _ _ _ _ _ _ _ _ (last_c0 t h3) (last_c1 t h3) (blk1 V c 0 t) (blk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS]
        · unfold owns; iexists _; isplitr
          swap; · iexact HS
          ipureintro; exact View.read_writes_of_cover _ _ _ _ _ (acc1_last_cover c _ _ _ _ _ _ _ _ _ _ _ _ _ _)
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (out1_last_cover c _ _ _ _ _ _ _ _ _ _ _ _ _ _)
    · rw [Dat.leavesExact_idle (dat1 V c) 2 t (idle1_2_mid t (mid_c0 t h0) (mid_c1 t h3)) (noFlush1_2_mid t (mid_c0 t h0) (mid_c1 t h3))]
      rw [outsAt1_mid V c t h0 h3]
      unfold midPt acc1_mid; (try dsimp only)
      rw [Phi1_castSucc V c t, PhiS1_pos V c _ _ hz]
      iintro ⟨⟨HS, Hr, Hg⟩, Ho, ⟨%d0, H0⟩, ⟨%d1, H1⟩, ⟨%d2, H2⟩⟩
      iapply ((run1_mid c (grid1.coords t) _ _ _ _ _ _ _ _ (mid_c0 t h0) (mid_c1 t h3) (blk1 V c 0 t) (blk1 V c 1 t) _).2 Set.univ _)
      isplitl [H0]; · iexact H0
      isplitl [H1]; · iexact H1
      isplitl [HS]; · iexact HS
      iintro ⟨H0, H1, ⟨%es, HS⟩⟩
      isplitl [HS Hr Hg]
      · isplitl [HS]
        · unfold owns; iexists _; isplitr
          swap; · iexact HS
          ipureintro; exact View.read_writes_of_cover _ _ _ _ _ (acc1_mid_cover c _ _ _ _ _ _ _ _ _ _ _ _ _ _)
        isplitl [Hr]; · iexact Hr
        iexact Hg
      isplitl [Ho]; · iexact Ho
      isplitl [H0]; · iexact H0
      isplitl [H1]; · iexact H1
      iexists _; iexact H2

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the launch's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  refine .trans ?_ (PhiA1_join c)
  iintro ⟨HS, Hr, Hg⟩
  isplitl [HS]; · iexists _; iexact HS
  isplitl [Hr]; · iexact Hr
  iexact Hg

end

end Cert.KernelIdeal.Hand

end
-- ==== Proof.KI.Compose.lean ====
/-
  The whole program, at any float instance: the contents of every unscoped buffer at each boundary of @main, and
  the run.

  @main is a stretch of host operations (the zero point taken off the weight, the casts, the bias as a row), then
  the first product's region, then the second's. The buffers' contents are folded through it: the launch memory;
  after the host stretch its operations' results; after a region its windows' arrays at what the region's
  write-backs leave (the inputs as entered) and every other buffer as entered. Each region is entered from the fold
  before it and left at the fold after it, so every weakly fair execution terminates with every unscoped buffer
  at the last fold — in particular the arguments as launched, and the result at what the second region leaves.
-/
import proofs.«170395_j57449482551364_2_alg».proof.Proof.KI.R0
import proofs.«170395_j57449482551364_2_alg».proof.Proof.KI.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region (the second region's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second region (the end). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- `main_arg0` ends as launched: the host stretch does not write it and it is no window's array of either region. -/
theorem W3_main_arg0 (c : Dev nD) : W3 m ρ c (Proc.devRef .tc main_arg0) = m ((c : Thread nD τ).loc main_arg0) :=
  (W3_of_ne m ρ c main_arg0 (by decide)).trans <| (W2_of_ne m ρ c main_arg0 (by decide)).trans <|
    (StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
/-- `main_arg1` ends as launched: the host stretch does not write it and it is no window's array of either region. -/
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <|
    (StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
/-- `main_arg2` ends as launched: the host stretch does not write it and it is no window's array of either region. -/
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans <|
    (StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
/-- `main_arg3` ends as launched: the host stretch does not write it and it is no window's array of either region. -/
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <|
    (StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
/-- `main_arg4` ends as launched: the host stretch does not write it and it is no window's array of either region. -/
theorem W3_main_arg4 (c : Dev nD) : W3 m ρ c (Proc.devRef .tc main_arg4) = m ((c : Thread nD τ).loc main_arg4) :=
  (W3_of_ne m ρ c main_arg4 (by decide)).trans <| (W2_of_ne m ρ c main_arg4 (by decide)).trans <|
    (StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- The result's buffer ends at what the second region's write-backs leave. -/
theorem W3_main_v8 (c : Dev nD) : W3 m ρ c (Proc.devRef .tc main_v8) = (dat1 (V2 m ρ) c).arrAt 2 cfg1.N :=
  W3_arr m ρ c 2

/-- The hidden layer's buffer, as the second region finds it, is what the first region's write-backs leave. -/
theorem V2_main_v7 (c : Dev nD) : V2 m ρ c main_v7 = (dat0 (V1 m ρ) c).arrAt 3 cfg0.N :=
  W2_arr m ρ c 3

/-- A buffer that is no window's array of the first region is, at the second region's entry, as the host stretch left it. -/
theorem V2_of_ne (c : Dev nD) (b : Ref sig .tc) (hb : ∀ w, Pipeline.arrRef spec0 w ≠ b) : V2 m ρ c b = V1 m ρ c b :=
  W2_of_ne m ρ c b hb

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the contents before it, left with its
    arrays at what its write-backs leave and every other buffer as entered. The generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its
    arrays at what its write-backs leave and every other buffer as entered. The generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting,
    and every unscoped buffer of every core ends at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Hand

end
-- ==== Proof.KI.HostVals.lean ====
/-
  What the host stretch hands the two regions, on the extended reals.

  A change of float format is the identity, so the left operand of the first product is x itself, the right operand
  of the second is W2 itself, and the right operand of the first is W1 with the zero point of its row taken off
  every entry: the zero point is broadcast along the rows' axis twice, [8192] to [8192, 1] to [8192, 4096], and entry
  (j, r) of the outcome is zp[j]. The bias is handed over as a row, [8192] reshaped to [1, 8192]: entry (0, j) of the
  row is b1[j].
-/
import proofs.«170395_j57449482551364_2_alg».proof.Proof.KI.Compose
import proofs.«170395_j57449482551364_2_alg».proof.Proof.Gen.ReferenceIdeal.Read
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo

variable (m : (ℓ : Loc nD τ sig) → Buf (Elt Ideal) ℓ) (ρ : Dev nD → PrngReg)

/-- The five argument arrays of core `c`, as arrays of extended reals. -/
abbrev aX (c : Dev nD) : S8192x4096.Idx → EReal := m ((c : Thread nD τ).loc main_arg0)
abbrev aW1 (c : Dev nD) : S8192x4096.Idx → EReal := m ((c : Thread nD τ).loc main_arg1)
abbrev aB1 (c : Dev nD) : S8192.Idx → EReal := m ((c : Thread nD τ).loc main_arg2)
abbrev aZp (c : Dev nD) : S8192.Idx → EReal := m ((c : Thread nD τ).loc main_arg3)
abbrev aW2 (c : Dev nD) : S4096x8192.Idx → EReal := m ((c : Thread nD τ).loc main_arg4)

/-- The first product's left operand is x. -/
theorem V1_v5 (c : Dev nD) (i : S8192x4096.Idx) :
    V1 m ρ c main_v5 i = aX m c i := by
  have e : (V1 m ρ c main_v5 : S8192x4096.Idx → EReal) = (truncf .bf16 (aX m c : FVec Ideal S8192x4096 .f32) bitsLt_bf16_f32 : FVec Ideal S8192x4096 .bf16) := by
    show StableHlo.after hostOps0 (W0 m ρ c) (Proc.devRef .tc main_v5) = _
    after_results <;> rfl
  rw [e]; rfl

/-- The second product's right operand is W2. -/
theorem V1_v6 (c : Dev nD) (i : S4096x8192.Idx) :
    V1 m ρ c main_v6 i = aW2 m c i := by
  have e : (V1 m ρ c main_v6 : S4096x8192.Idx → EReal) = (truncf .bf16 (aW2 m c : FVec Ideal S4096x8192 .f32) bitsLt_bf16_f32 : FVec Ideal S4096x8192 .bf16) := by
    show StableHlo.after hostOps0 (W0 m ρ c) (Proc.devRef .tc main_v6) = _
    after_results <;> rfl
  rw [e]; rfl

/-- The first product's right operand is W1 less its row's zero point. -/
theorem V1_v3 (c : Dev nD) (i : S8192x4096.Idx) :
    V1 m ρ c main_v3 i = aW1 m c i - aZp m c (ix1 (i 0)) := by
  have e : (V1 m ρ c main_v3 : S8192x4096.Idx → EReal) = (truncf .bf16 (subf (aW1 m c : FVec Ideal S8192x4096 .f32)
      (broadcastInDim S8192x4096 ![0, 1] bcast_S8192x1_S8192x4096_0_1 (broadcastInDim S8192x1 ![0] bcast_S8192_S8192x1_0 (aZp m c : FVec Ideal S8192 .f32)) : FVec Ideal S8192x4096 .f32)) bitsLt_bf16_f32 : FVec Ideal S8192x4096 .bf16) := by
    show StableHlo.after hostOps0 (W0 m ρ c) (Proc.devRef .tc main_v3) = _
    after_results <;> rfl
  rw [e]
  show aW1 m c i - Cert.ReferenceIdeal.Read.val_main_v1 (F := Ideal) (aZp m c) i = _
  rw [Cert.ReferenceIdeal.Read.val_main_v1_apply, Cert.ReferenceIdeal.Read.val_main_v0_apply]
  congr 2
  funext a
  match a with
  | ⟨0, _⟩ => rfl

/-- The bias row's entry (0, j) is b1[j]. -/
theorem V1_v4 (c : Dev nD) (i : S1x8192.Idx) :
    V1 m ρ c main_v4 i = aB1 m c (ix1 (i 1)) := by
  have e : (V1 m ρ c main_v4 : S1x8192.Idx → EReal) = (shapeCast S1x8192 (aB1 m c : FVec Ideal S8192 .f32) shapeCasts_S8192_S1x8192 : FVec Ideal S1x8192 .f32) := by
    show StableHlo.after hostOps0 (W0 m ρ c) (Proc.devRef .tc main_v4) = _
    after_results <;> rfl
  rw [e]
  refine (shapeCast_addUnit_apply ![8192] (aB1 m c) shapeCasts_S8192_S1x8192 i).trans ?_
  congr 1
  funext a
  match a with
  | ⟨0, _⟩ => rfl

end Cert.KernelIdeal.Hand

end
-- ==== Proof.KI.Idx0.lean ====
/-
  The first product's grid, coordinate by coordinate.

  Point (i, j, k) is position 16·i + 2·j + k. There the left operand's window is block (i, k), the right operand's
  block (j, k), the bias row's block (0, j) and the result's block (i, j): entry (p, r) of an operand's block is
  entry (1024·i + p, 2048·k + r) (respectively (1024·j + p, 2048·k + r)) of its array, entry (0, q) of the bias
  block is entry (0, 1024·j + q) of the row, and entry (p, q) of the result's block is entry
  (1024·i + p, 1024·j + q) of the hidden layer. The odd positions are the points with k = 1, and the position before
  (i, j, 1) is (i, j, 0). Every entry of the hidden layer lies in the block of exactly such a point.
-/
import proofs.«170395_j57449482551364_2_alg».proof.Proof.KI.R0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Point (i, j, k) of the first region's grid. -/
def pt0 (i j : Fin 8) (k : Fin 2) : Fin cfg0.N := ⟨16 * i.val + 2 * j.val + k.val, by rw [show cfg0.N = 128 from N_0]; omega⟩

theorem pt0_val (i j : Fin 8) (k : Fin 2) : (pt0 i j k).val = 16 * i.val + 2 * j.val + k.val := rfl

/-- The printed index maps at point (i, j, k), decided over the grid. -/
theorem idx0 : ∀ (i j : Fin 8) (k : Fin 2),
    win0_0.index (pt0 i j k) = ![i.val, k.val] ∧ win0_1.index (pt0 i j k) = ![j.val, k.val]
    ∧ win0_2.index (pt0 i j k) = ![0, j.val] ∧ win0_3.index (pt0 i j k) = ![i.val, j.val] := by
  decide +kernel

/-- Every position is some point's. -/
theorem pt0_surj (t : Fin cfg0.N) : ∃ (i j : Fin 8) (k : Fin 2), t = pt0 i j k := by
  have hN : t.val < 128 := lt_of_lt_of_eq t.isLt (show cfg0.N = 128 from N_0)
  exact ⟨⟨t.val / 16, by omega⟩, ⟨t.val % 16 / 2, by omega⟩, ⟨t.val % 2, by omega⟩, Fin.ext (by show t.val = 16 * (t.val / 16) + 2 * (t.val % 16 / 2) + t.val % 2; omega)⟩

/-- An odd position is a point with k = 1. -/
theorem pt0_of_odd (t : Fin cfg0.N) (h : t.val % 2 = 1) : ∃ (i j : Fin 8), t = pt0 i j 1 := by
  obtain ⟨i, j, k, rfl⟩ := pt0_surj t
  have hk : k = 1 := Fin.ext (by have := pt0_val i j k; have hk2 := k.isLt; show k.val = 1; omega)
  exact ⟨i, j, by rw [hk]⟩

section
variable (V : (c : Dev nD) → (b : Ref sig .tc) → Buf (Elt F) ((c : Thread nD τ).loc b))

/-- The left operand's block at a point whose block index is (a, b), entry (p, r). -/
theorem blk0_0_at (c : Dev nD) (t : Fin cfg0.N) (a b : ℕ) (h : win0_0.index t = ![a, b]) (p : Fin 1024) (r : Fin 2048)
    (T : Fin 8192) (K : Fin 4096) (hT : T.val = a * 1024 + p.val) (hK : K.val = b * 2048 + r.val) :
    blk0 V c 0 t (ix2 p r) = V c main_v5 (ix2 T K) := by
  have h0 : win0_0.index t (0 : Fin 2) = a := by rw [h]; rfl
  have h1 : win0_0.index t (1 : Fin 2) = b := by rw [h]; rfl
  unfold blk0
  show V c main_v5 (((cfg0.win 0).blk t).view.emb (ix2 p r)) = V c main_v5 (ix2 T K)
  congr 1
  funext d; apply Fin.ext
  match d with
  | ⟨0, _⟩ => show win0_0.index t (0 : Fin 2) * 1024 + 1 * p.val = T.val; rw [h0, hT]; omega
  | ⟨1, _⟩ => show win0_0.index t (1 : Fin 2) * 2048 + 1 * r.val = K.val; rw [h1, hK]; omega

/-- The right operand's block at a point whose block index is (a, b), entry (q, r). -/
theorem blk0_1_at (c : Dev nD) (t : Fin cfg0.N) (a b : ℕ) (h : win0_1.index t = ![a, b]) (q : Fin 1024) (r : Fin 2048)
    (J : Fin 8192) (K : Fin 4096) (hJ : J.val = a * 1024 + q.val) (hK : K.val = b * 2048 + r.val) :
    blk0 V c 1 t (ix2 q r) = V c main_v3 (ix2 J K) := by
  have h0 : win0_1.index t (0 : Fin 2) = a := by rw [h]; rfl
  have h1 : win0_1.index t (1 : Fin 2) = b := by rw [h]; rfl
  unfold blk0
  show V c main_v3 (((cfg0.win 1).blk t).view.emb (ix2 q r)) = V c main_v3 (ix2 J K)
  congr 1
  funext d; apply Fin.ext
  match d with
  | ⟨0, _⟩ => show win0_1.index t (0 : Fin 2) * 1024 + 1 * q.val = J.val; rw [h0, hJ]; omega
  | ⟨1, _⟩ => show win0_1.index t (1 : Fin 2) * 2048 + 1 * r.val = K.val; rw [h1, hK]; omega

/-- The bias row's block at a point whose block index is (0, b), entry (0, q). -/
theorem blk0_2_at (c : Dev nD) (t : Fin cfg0.N) (b : ℕ) (h : win0_2.index t = ![0, b]) (q : Fin 1024)
    (J : Fin 8192) (hJ : J.val = b * 1024 + q.val) :
    blk0 V c 2 t (ix2 (0 : Fin 1) q) = V c main_v4 (ix2 (0 : Fin 1) J) := by
  have h0 : win0_2.index t (0 : Fin 2) = 0 := by rw [h]; rfl
  have h1 : win0_2.index t (1 : Fin 2) = b := by rw [h]; rfl
  unfold blk0
  show V c main_v4 (((cfg0.win 2).blk t).view.emb (ix2 (0 : Fin 1) q)) = V c main_v4 (ix2 (0 : Fin 1) J)
  congr 1
  funext d; apply Fin.ext
  match d with
  | ⟨0, _⟩ => show win0_2.index t (0 : Fin 2) * 1 + 1 * 0 = 0; rw [h0]
  | ⟨1, _⟩ => show win0_2.index t (1 : Fin 2) * 1024 + 1 * q.val = J.val; rw [h1, hJ]; omega

end

/-- Entry (p, q) of the result's block at a point whose block index is (a, b) is entry (a·1024 + p, b·1024 + q) of
    the hidden layer. -/
theorem emb0_3_at (t : Fin cfg0.N) (a b : ℕ) (h : win0_3.index t = ![a, b]) (p q : Fin 1024)
    (T J : Fin 8192) (hT : T.val = a * 1024 + p.val) (hJ : J.val = b * 1024 + q.val) :
    ((cfg0.win 3).blk t).view.emb (ix2 p q) = ix2 T J := by
  have h0 : win0_3.index t (0 : Fin 2) = a := by rw [h]; rfl
  have h1 : win0_3.index t (1 : Fin 2) = b := by rw [h]; rfl
  funext d; apply Fin.ext
  match d with
  | ⟨0, _⟩ => show win0_3.index t (0 : Fin 2) * 1024 + 1 * p.val = T.val; rw [h0, hT]; omega
  | ⟨1, _⟩ => show win0_3.index t (1 : Fin 2) * 1024 + 1 * q.val = J.val; rw [h1, hJ]; omega

/-- An entry of the hidden layer is in a point's result block iff each coordinate is in the block's range. -/
theorem mem_blk0_3 (t : Fin cfg0.N) (i : S8192x8192.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v7).slice (win0_3.rect t)).set ↔ _
  rw [View.set_slice_whole, Rect.mem_set_unit]
  exact Iff.rfl

/-- Every entry of the hidden layer is in the block of a point that writes it back. -/
theorem cover0_3 (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  let bi : Fin 8 := ⟨(i 0).val / 1024, by omega⟩
  let bj : Fin 8 := ⟨(i 1).val / 1024, by omega⟩
  obtain ⟨-, -, -, e3⟩ := idx0 bi bj 1
  have q0 : win0_3.index (pt0 bi bj 1) (0 : Fin 2) = (i 0).val / 1024 := by rw [e3]; rfl
  have q1 : win0_3.index (pt0 bi bj 1) (1 : Fin 2) = (i 1).val / 1024 := by rw [e3]; rfl
  refine ⟨pt0 bi bj 1, (flush0_3 _).mpr (by rw [pt0_val]; show (16 * bi.val + 2 * bj.val + 1) % 2 = 1; omega), ?_⟩
  rw [mem_blk0_3]
  intro a
  match a with
  | ⟨0, _⟩ => show win0_3.index (pt0 bi bj 1) (0 : Fin 2) * 1024 ≤ (i 0).val ∧ (i 0).val < win0_3.index (pt0 bi bj 1) (0 : Fin 2) * 1024 + 1024; rw [q0]; omega
  | ⟨1, _⟩ => show win0_3.index (pt0 bi bj 1) (1 : Fin 2) * 1024 ≤ (i 1).val ∧ (i 1).val < win0_3.index (pt0 bi bj 1) (1 : Fin 2) * 1024 + 1024; rw [q1]; omega

end Cert.KernelIdeal.Hand

end
-- ==== Proof.KI.Pieces0.lean ====
/-
  The first product's region: what each point's stores leave, as one term over the body's arithmetic.

  Every store of the body writes a whole buffer (the rectangle at offset (0, 0) of the buffer's own extent), so
  the contents a list of such stores leaves are the payload of the LAST store, whatever came before; and a load of
  the whole buffer right after such a store reads that store's payload back. The operand buffers are read whole,
  so a load of one reads the block it holds.
    * At an even point the accumulator is stored twice: zeros first, then the accumulation step applied to what is
      read back (the zeros) and the two operand blocks. It ends at that second payload.
    * At an odd point the accumulator is stored once: the accumulation step applied to the contents found and the
      two operand blocks. The result's buffer is stored once: the closing step applied to the accumulator read
      back after that store (the new accumulator) and the bias row.
-/
import proofs.«170395_j57449482551364_2_alg».proof.Proof.KI.R0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body are zero. -/
theorem hz00 : (![0, 0] : Fin 2 → Nat) = fun _ => 0 := funext fun a => by fin_cases a <;> rfl

/-- An even point leaves the accumulator at the accumulation step of zeros and its two operand blocks. -/
theorem acc0_even_eq (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : cond0_0 i) (hc1 : ¬cond0_1 i)
    (x0 : Vec F S1024x2048 .bf16) (x1 : Vec F S1024x2048 .bf16) :
    acc0_even c i a3 h3 a4 h4 a5 h5 a6 h6 a7 h7 hc0 hc1 x0 x1 = k0_pay2 (k0_pay1 (F := F)) x0 x1 := by
  unfold acc0_even
  rw [View.read_writes_eq_canon _ _ _ (acc0_even_cover c i a3 h3 a4 h4 a5 h5 a6 h6 a7 h7 hc0 hc1 x0 x1)]
  unfold run0_even
  dsimp only
  sl_unfold_words
  rw [View.canon_cons_unit_zero (S := S1024x1024) hz00, View.readCov_unit_zero (S := S1024x1024) _ hz00]
  simp only [View.readAt_eq_ld, h3.read_unread, h4.read_unread, View.ld_unit_zero (S := S1024x2048) hz00]

/-- An odd point leaves the accumulator at the accumulation step of what it found and its two operand blocks. -/
theorem acc0_odd_eq (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : ¬cond0_0 i) (hc1 : cond0_1 i)
    (x0 : Vec F S1024x2048 .bf16) (x1 : Vec F S1024x2048 .bf16) (x2 : Vec F S1x1024 .f32) (xs : Vec F S1024x1024 .f32) :
    acc0_odd c i a3 h3 a4 h4 a5 h5 a6 h6 a7 h7 hc0 hc1 x0 x1 x2 xs = k0_pay2 xs x0 x1 := by
  unfold acc0_odd
  rw [View.read_writes_eq_canon _ _ _ (acc0_odd_cover c i a3 h3 a4 h4 a5 h5 a6 h6 a7 h7 hc0 hc1 x0 x1 x2 xs)]
  unfold run0_odd
  dsimp only
  sl_unfold_words
  rw [View.canon_unit_zero (S := S1024x1024) hz00]
  simp only [View.readAt_eq_ld, h3.read_unread, h4.read_unread, h7.read_unread,
    View.ld_unit_zero (S := S1024x2048) hz00, View.ld_unit_zero (S := S1024x1024) hz00]

/-- An odd point leaves the result's buffer at the closing step of the new accumulator and the bias row. -/
theorem out0_odd_eq (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .f32) (h7 : a7.IsWhole) (hc0 : ¬cond0_0 i) (hc1 : cond0_1 i)
    (x0 : Vec F S1024x2048 .bf16) (x1 : Vec F S1024x2048 .bf16) (x2 : Vec F S1x1024 .f32) (xs : Vec F S1024x1024 .f32) :
    out0_odd c i a3 h3 a4 h4 a5 h5 a6 h6 a7 h7 hc0 hc1 x0 x1 x2 xs = k0_pay3 (k0_pay2 xs x0 x1) x2 := by
  unfold out0_odd
  rw [View.read_writes_eq_canon _ _ _ (out0_odd_cover c i a3 h3 a4 h4 a5 h5 a6 h6 a7 h7 hc0 hc1 x0 x1 x2 xs)]
  unfold run0_odd
  dsimp only
  sl_unfold_words
  rw [View.canon_unit_zero (S := S1024x1024) hz00, View.readCov_unit_zero (S := S1024x1024) _ hz00]
  simp only [View.readAt_eq_ld, h3.read_unread, h4.read_unread, h5.read_unread, h7.read_unread,
    View.ld_unit_zero (S := S1024x2048) hz00, View.ld_unit_zero (S := S1024x1024) hz00,
    View.ld_unit_zero (S := S1x1024) hz00]

end Cert.KernelIdeal.Hand

end
-- ==== Proof.LibMatmulNT.lean ====
/-
  A matrix product against a transposed right operand, on the extended reals, read at an index.

  For `x` of shape [M, K] and `w` of shape [N, K], contracting the second axis of both into a zero accumulator,
  entry (p, q) of the product is Σ_k x[p,k] · w[q,k]: the product's element is the sum over the contraction's
  index space of the two operands at the indices the dimension numbers build, and with ONE contracted axis that
  index space is `Fin K`; the left index keeps the output's row and takes `k` on its second axis, the right
  index keeps the output's column as ITS row and takes `k` on its second axis.
-/
import Idealize.ShloMosaic.PureOps.Ideal.Laws
import Idealize.ShloMosaic.Lib.ValueIdx

noncomputable section

namespace Cert.Hand.Lib

open Idealize.ShloMosaic Idealize.ShloMosaic.ValueIdx

section
variable {M K N : Nat}

local notation "D" => DotDims.transposedRhs M K N

/-- The left index keeps the output's row. -/
theorem lhs_row (j : (⟨2, ![M, N]⟩ : Shape).Idx) (k : (D).contr.Idx) : ((D).lhsIdx j k 0).val = (j 0).val := by
  unfold DotDims.lhsIdx
  rw [dif_neg (show ¬(0 : Fin (⟨2, ![M, K]⟩ : Shape).rank) ∈ (D).lhsBatch by simp [DotDims.transposedRhs]),
    dif_pos (show (0 : Fin (⟨2, ![M, K]⟩ : Shape).rank) ∈ (D).lhsNonContracting by simp [DotDims.transposedRhs])]
  rfl

/-- The left index takes the contraction's coordinate on its second axis. -/
theorem lhs_col (j : (⟨2, ![M, N]⟩ : Shape).Idx) (k : (D).contr.Idx) : ((D).lhsIdx j k 1).val = (k ⟨0, (Nat.one_pos : 0 < 1)⟩).val :=
  (D).lhsIdx_val_of_single rfl j k

/-- The right index keeps the output's column as its row. -/
theorem rhs_row (j : (⟨2, ![M, N]⟩ : Shape).Idx) (k : (D).contr.Idx) : ((D).rhsIdx j k 0).val = (j 1).val := by
  unfold DotDims.rhsIdx
  rw [dif_neg (show ¬(0 : Fin (⟨2, ![N, K]⟩ : Shape).rank) ∈ (D).rhsBatch by simp [DotDims.transposedRhs]),
    dif_pos (show (0 : Fin (⟨2, ![N, K]⟩ : Shape).rank) ∈ (D).rhsNonContracting by simp [DotDims.transposedRhs])]
  rfl

/-- The right index takes the contraction's coordinate on its second axis. -/
theorem rhs_col (j : (⟨2, ![M, N]⟩ : Shape).Idx) (k : (D).contr.Idx) : ((D).rhsIdx j k 1).val = (k ⟨0, (Nat.one_pos : 0 < 1)⟩).val :=
  (D).rhsIdx_val_of_single rfl j k

/-- Entry (p, q) of `x · wᵀ` into a zero accumulator is the sum over the shared coordinate. -/
theorem matmul_transposedRhs_apply {φ₁ φ₂ : FTy}
    (x : FVec Ideal (⟨2, ![M, K]⟩ : Shape) φ₁) (w : FVec Ideal (⟨2, ![N, K]⟩ : Shape) φ₂) (p : Fin M) (q : Fin N) :
    FloatOps.matmul (D) none x w (constant (F := Ideal) (⟨2, ![M, N]⟩ : Shape) .f32 0x00000000#32) (ix2 p q)
      = ∑ k : Fin K, x (ix2 p k) * w (ix2 q k) := by
  rw [Ideal.matmul_constant_zero_apply, ← Equiv.sum_comp (contrEquiv1 (D) K rfl rfl).symm]
  refine Finset.sum_congr rfl fun k _ => ?_
  have hk := contrEquiv1_symm_val (D) K rfl rfl k
  have el : (D).lhsIdx (ix2 p q) ((contrEquiv1 (D) K rfl rfl).symm k) = ix2 p k :=
    funext fun a => Fin.ext (by
      match a with
      | ⟨0, _⟩ => exact lhs_row _ _
      | ⟨1, _⟩ => exact (lhs_col _ _).trans hk)
  have er : (D).rhsIdx (ix2 p q) ((contrEquiv1 (D) K rfl rfl).symm k) = ix2 q k :=
    funext fun a => Fin.ext (by
      match a with
      | ⟨0, _⟩ => exact rhs_row _ _
      | ⟨1, _⟩ => exact (rhs_col _ _).trans hk)
  rw [el, er]

end

end Cert.Hand.Lib

end
-- ==== Proof.Spec.lean ====
/-
  The function both programs compute, on the extended reals, index by index.

  With x : [8192, 4096], W1 : [8192, 4096], b1 : [8192], zp : [8192], W2 : [4096, 8192]:
    weff[j, k]  = W1[j, k] − zp[j]                          (the zero point taken off every row of the weight)
    pre[t, j]   = (Σ_k x[t, k] · weff[j, k]) + b1[j]        (a product against the transposed weight, plus the bias)
    hid[t, j]   = pre[t, j] · logistic(pre[t, j])           (SiLU)
    out[t, d]   = Σ_j hid[t, j] · W2[d, j]                  (a product against the transposed second weight)
  Nothing here needs the entries to be finite: only sums and products of extended reals appear, and the two programs
  differ from this function by the grouping of the two sums alone.
-/
import Idealize.ShloMosaic.PureOps.Ideal
import Idealize.ShloMosaic.Lib.ValueIdx

noncomputable section

namespace Cert.Hand.Spec

open Idealize.ShloMosaic Idealize.ShloMosaic.ValueIdx

/-- SiLU on the extended reals: a · logistic a. -/
def silu (a : EReal) : EReal := a * Ideal.logistic a

/-- The weight with its zero point removed, row by row. -/
def weff (w1 : (⟨2, ![8192, 4096]⟩ : Shape).Idx → EReal) (zp : (⟨1, ![8192]⟩ : Shape).Idx → EReal)
    (j : Fin 8192) (k : Fin 4096) : EReal :=
  w1 (ix2 j k) - zp (ix1 j)

/-- The first layer before its activation. -/
def pre (x w1 : (⟨2, ![8192, 4096]⟩ : Shape).Idx → EReal) (b1 zp : (⟨1, ![8192]⟩ : Shape).Idx → EReal)
    (t j : Fin 8192) : EReal :=
  (∑ k : Fin 4096, x (ix2 t k) * weff w1 zp j k) + b1 (ix1 j)

/-- The hidden layer. -/
def hid (x w1 : (⟨2, ![8192, 4096]⟩ : Shape).Idx → EReal) (b1 zp : (⟨1, ![8192]⟩ : Shape).Idx → EReal)
    (t j : Fin 8192) : EReal :=
  silu (pre x w1 b1 zp t j)

/-- The result, entry (t, d). -/
def out (x w1 : (⟨2, ![8192, 4096]⟩ : Shape).Idx → EReal) (b1 zp : (⟨1, ![8192]⟩ : Shape).Idx → EReal)
    (w2 : (⟨2, ![4096, 8192]⟩ : Shape).Idx → EReal) (t : Fin 8192) (d : Fin 4096) : EReal :=
  ∑ j : Fin 8192, hid x w1 b1 zp t j * w2 (ix2 d j)

/-- The result as an array. -/
def outArr (x w1 : (⟨2, ![8192, 4096]⟩ : Shape).Idx → EReal) (b1 zp : (⟨1, ![8192]⟩ : Shape).Idx → EReal)
    (w2 : (⟨2, ![4096, 8192]⟩ : Shape).Idx → EReal) : (⟨2, ![8192, 4096]⟩ : Shape).Idx → EReal :=
  fun i => out x w1 b1 zp w2 (i 0) (i 1)

/-- The hidden layer as an array. -/
def hidArr (x w1 : (⟨2, ![8192, 4096]⟩ : Shape).Idx → EReal) (b1 zp : (⟨1, ![8192]⟩ : Shape).Idx → EReal) :
    (⟨2, ![8192, 8192]⟩ : Shape).Idx → EReal :=
  fun i => hid x w1 b1 zp (i 0) (i 1)

end Cert.Hand.Spec

end
-- ==== Proof.Payloads.lean ====
/-
  The kernel's per-point arithmetic, read at an index, on the extended reals.

  Each grid point of the two accumulating products works on a 1024 × 1024 block of the result:
    * the zeroing step writes the constant 0 at every entry;
    * the accumulating step adds to the entry (p, q) of the accumulator the partial product
        Σ_k a[p, k] · b[q, k]   over the 2048 shared coordinates of the two operand blocks
      (a product against the transposed right operand, into a zero start);
    * the closing step of the first product adds the bias row to the accumulator and applies
        SiLU(a) = a · logistic(a)
      entry by entry; the narrowing of the result's format is the identity on the extended reals.
  Every operation involved is pointwise except the product (one sum per entry), the shape casts (to the same
  shape: identities) and the broadcast of the one bias row over all 1024 rows.
-/
import proofs.«170395_j57449482551364_2_alg».proof.Proof.Gen.KernelIdeal.Skeleton
import proofs.«170395_j57449482551364_2_alg».proof.Proof.LibMatmulNT
import proofs.«170395_j57449482551364_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Hand.Pay

open Idealize.ShloMosaic Idealize.ShloMosaic.ValueIdx Cert.KernelIdeal Cert.KernelIdeal.Gen

/-- The printed dimension numbers of the two products are those of a product against a transposed right operand. -/
theorem dot_eq : dot_S1024x2048_S1024x2048_S1024x1024_1_1_0_0_n_n = DotDims.transposedRhs 1024 2048 1024 := rfl

/-- The zeroing step of the first product writes 0 everywhere. -/
theorem pay_zero (p q : Fin 1024) : k0_pay1 (F := Ideal) (ix2 p q) = 0 := by
  unfold k0_pay1
  rw [shapeCast_self]
  exact Ideal.ofBits_zero_f32

/-- The zeroing step of the second product writes 0 everywhere. -/
theorem pay_zero' (p q : Fin 1024) : k1_pay1 (F := Ideal) (ix2 p q) = 0 := by
  unfold k1_pay1
  rw [shapeCast_self]
  exact Ideal.ofBits_zero_f32

/-- One accumulation, stated for the term both products print. -/
theorem acc_apply (v3 : FVec Ideal S1024x1024 .f32) (v4 v6 : FVec Ideal S1024x2048 .bf16) (p q : Fin 1024) :
    addf v3 (matmul (DotDims.transposedRhs 1024 2048 1024) none v4 v6
        (constant (F := Ideal) S1024x1024 .f32 0x00000000#32)) (ix2 p q)
      = v3 (ix2 p q) + ∑ k : Fin 2048, v4 (ix2 p k) * v6 (ix2 q k) := by
  rw [addf_apply]
  exact congrArg (v3 (ix2 p q) + ·) (Cert.Hand.Lib.matmul_transposedRhs_apply v4 v6 p q)

/-- The accumulating step of the first product at entry (p, q). -/
theorem pay_acc (v3 : Vec Ideal S1024x1024 .f32) (v4 v6 : Vec Ideal S1024x2048 .bf16) (p q : Fin 1024) :
    k0_pay2 v3 v4 v6 (ix2 p q) = v3 (ix2 p q) + ∑ k : Fin 2048, v4 (ix2 p k) * v6 (ix2 q k) := by
  unfold k0_pay2
  rw [shapeCast_self, shapeCast_self, shapeCast_self, dot_eq]
  exact acc_apply v3 v4 v6 p q

/-- The accumulating step of the second product at entry (p, q). -/
theorem pay_acc' (v3 : Vec Ideal S1024x1024 .f32) (v4 v6 : Vec Ideal S1024x2048 .bf16) (p q : Fin 1024) :
    k1_pay2 v3 v4 v6 (ix2 p q) = v3 (ix2 p q) + ∑ k : Fin 2048, v4 (ix2 p k) * v6 (ix2 q k) := by
  unfold k1_pay2
  rw [shapeCast_self, shapeCast_self, shapeCast_self, dot_eq]
  exact acc_apply v3 v4 v6 p q

/-- The closing step of the first product at entry (p, q): SiLU of the accumulator plus the bias. -/
theorem pay_silu (v16 : Vec Ideal S1024x1024 .f32) (v17 : Vec Ideal S1x1024 .f32) (p q : Fin 1024) :
    k0_pay3 v16 v17 (ix2 p q) = Cert.Hand.Spec.silu (v16 (ix2 p q) + v17 (ix2 0 q)) := by
  have hb : broadcastTo S1024x1024 v17 broadcasts_S1x1024_S1024x1024 (ix2 p q) = v17 (ix2 0 q) :=
    broadcastTo_1b_ab_apply v17 _ p q
  unfold k0_pay3 Cert.Hand.Spec.silu
  rw [shapeCast_self]
  show (v16 (ix2 p q) + broadcastTo S1024x1024 v17 broadcasts_S1x1024_S1024x1024 (ix2 p q))
      * Ideal.logistic (v16 (ix2 p q) + broadcastTo S1024x1024 v17 broadcasts_S1x1024_S1024x1024 (ix2 p q)) = _
  rw [hb]

end Cert.Hand.Pay

end
-- ==== Proof.SumBlocks.lean ====
/-
  Regrouping a long sum into consecutive blocks of 2048 terms.

  In a commutative additive monoid, a sum over the first n = a + b naturals is the sum over the first a of them
  plus the sum over the next b.  Used once it splits a sum of 4096 terms into two blocks of 2048; used three
  times it splits a sum of 8192 terms into four blocks of 2048, added from the left into a zero start, which is
  the order in which a block-by-block accumulation adds them.  Only associativity of + and 0 + a = a are used,
  so nothing has to be finite.
-/
import Mathlib.Algebra.BigOperators.Fin

namespace Cert.Hand.Sum

variable {M : Type*} [AddCommMonoid M]

/-- A sum over `Fin n` with `n = a + b` is the sum of its first `a` terms plus the sum of the next `b`. -/
theorem sum_split (a b n : Nat) (h : a + b = n) (f : Fin n → M) :
    ∑ k : Fin n, f k
      = (∑ k : Fin a, f ⟨k.val, by omega⟩) + ∑ k : Fin b, f ⟨a + k.val, by omega⟩ := by
  subst h
  rw [Fin.sum_univ_add]
  rfl

/-- 4096 terms as two blocks of 2048, added in order into a zero start. -/
theorem sum_two_blocks (f : Fin 4096 → M) :
    (0 + ∑ k : Fin 2048, f ⟨k.val, by omega⟩) + ∑ k : Fin 2048, f ⟨2048 + k.val, by omega⟩
      = ∑ k : Fin 4096, f k := by
  rw [zero_add]
  exact (sum_split 2048 2048 4096 rfl f).symm

/-- 8192 terms as four blocks of 2048, added in order into a zero start. -/
theorem sum_four_blocks (f : Fin 8192 → M) :
    (((0 + ∑ k : Fin 2048, f ⟨k.val, by omega⟩) + ∑ k : Fin 2048, f ⟨2048 + k.val, by omega⟩)
        + ∑ k : Fin 2048, f ⟨4096 + k.val, by omega⟩) + ∑ k : Fin 2048, f ⟨6144 + k.val, by omega⟩
      = ∑ k : Fin 8192, f k := by
  rw [zero_add, sum_split 6144 2048 8192 rfl f,
    sum_split 4096 2048 6144 rfl (fun k : Fin 6144 => f ⟨k.val, by omega⟩),
    sum_split 2048 2048 4096 rfl (fun k : Fin 4096 => f ⟨k.val, by omega⟩)]

end Cert.Hand.Sum
-- ==== Proof.KI.Val0.lean ====
/-
  What the first region leaves in the hidden layer, on the extended reals.

  Let X, W and B be what the region finds in the left operand [8192, 4096], the right operand [8192, 4096] and the
  bias row [1, 8192]. At point (i, j, 1) the body stores into the result's block, at entry (p, q),
      silu( ((0 + Σ_{r<2048} X[T, r]·W[J, r]) + Σ_{r<2048} X[T, 2048 + r]·W[J, 2048 + r]) + B[0, J] ),
  with T = 1024·i + p and J = 1024·j + q: the accumulator was zeroed and given the first block product at
  (i, j, 0), given the second at (i, j, 1), and the bias and the activation follow. The two block sums added to zero
  in order are the sum over all 4096 indices, so this is entry (T, J) of silu(X·Wᵀ + B), and since every entry of
  the hidden layer lies in such a block the whole array ends at that function.
-/
import proofs.«170395_j57449482551364_2_alg».proof.Proof.KI.Idx0
import proofs.«170395_j57449482551364_2_alg».proof.Proof.KI.Pieces0
import proofs.«170395_j57449482551364_2_alg».proof.Proof.Payloads
import proofs.«170395_j57449482551364_2_alg».proof.Proof.SumBlocks
import proofs.«170395_j57449482551364_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- silu(X·Wᵀ + B), entry by entry. -/
def hidOf (X Wf : S8192x4096.Idx → EReal) (Br : S1x8192.Idx → EReal) : S8192x8192.Idx → EReal :=
  fun i => Cert.Hand.Spec.silu ((∑ r : Fin 4096, X (ix2 (i 0) r) * Wf (ix2 (i 1) r)) + Br (ix2 (0 : Fin 1) (i 1)))

/-- One entry of what a pair of points (k = 0, then k = 1) leaves in the result's block, from the four operand
    blocks and the bias block. -/
theorem pair_value (x0e x1e x0o x1o : Vec Ideal S1024x2048 .bf16) (x2 : Vec Ideal S1x1024 .f32) (p q : Fin 1024) :
    k0_pay3 (k0_pay2 (k0_pay2 (k0_pay1 (F := Ideal)) x0e x1e) x0o x1o) x2 (ix2 p q)
      = Cert.Hand.Spec.silu (((0 + ∑ r : Fin 2048, x0e (ix2 p r) * x1e (ix2 q r)) + ∑ r : Fin 2048, x0o (ix2 p r) * x1o (ix2 q r)) + x2 (ix2 0 q)) := by
  rw [Cert.Hand.Pay.pay_silu, Cert.Hand.Pay.pay_acc, Cert.Hand.Pay.pay_acc, Cert.Hand.Pay.pay_zero]

/-- A block sum, summand by summand. -/
theorem sum_blk (x0 x1 : Vec Ideal S1024x2048 .bf16) (g : Fin 2048 → EReal) (p q : Fin 1024)
    (h : ∀ r : Fin 2048, x0 (ix2 p r) * x1 (ix2 q r) = g r) :
    (∑ r : Fin 2048, x0 (ix2 p r) * x1 (ix2 q r)) = ∑ r : Fin 2048, g r :=
  Finset.sum_congr rfl fun r _ => h r

section
variable (V : (c : Dev nD) → (b : Ref sig .tc) → Buf (Elt Ideal) ((c : Thread nD τ).loc b))

theorem outsAt0_congr (c : Dev nD) (n n' : ℕ) (e : n = n') (h : n < cfg0.N) (h' : n' < cfg0.N) :
    outsAt0 V c n h = outsAt0 V c n' h' := by subst e; rfl

/-- What point (i, j, 1) writes back is its block of silu(X·Wᵀ + B). -/
theorem flushed0_pt (c : Dev nD) (X Wf : S8192x4096.Idx → EReal) (Br : S1x8192.Idx → EReal)
    (hX : ∀ i, V c main_v5 i = X i) (hW : ∀ i, V c main_v3 i = Wf i) (hB : ∀ i, V c main_v4 i = Br i) (i j : Fin 8) :
    (dat0 V c).flushed 3 (pt0 i j 1) = ((cfg0.win 3).blk (pt0 i j 1)).view.read (Elt Ideal) (hidOf X Wf Br) := by
  have hodd : (pt0 i j 1).val % 2 = 1 := by rw [pt0_val]; show (16 * i.val + 2 * j.val + 1) % 2 = 1; omega
  have heven : (pt0 i j 0).val % 2 = 0 := by rw [pt0_val]; show (16 * i.val + 2 * j.val + 0) % 2 = 0; omega
  obtain ⟨e0o, e1o, e2o, e3o⟩ := idx0 i j 1
  obtain ⟨e0e, e1e, -, -⟩ := idx0 i j 0
  show (cfg0.win 3).cut (grid0.coords (pt0 i j 1)) ((dat0 V c).after 3 (pt0 i j 1)) = _
  rw [after0_3, outsAt0_odd V c (pt0 i j 1) hodd]
  unfold oddPt
  dsimp only
  rw [out0_odd_eq, outsAt0_congr V c ((pt0 i j 1).val - 1) (pt0 i j 0).val (by rw [pt0_val, pt0_val]; show 16 * i.val + 2 * j.val + 1 - 1 = 16 * i.val + 2 * j.val + 0; omega) _ (pt0 i j 0).isLt,
    outsAt0_even V c (pt0 i j 0) heven]
  unfold evenPt
  dsimp only
  rw [acc0_even_eq]
  funext y
  obtain ⟨p, q, rfl⟩ : ∃ (p q : Fin 1024), y = ix2 p q := ⟨y 0, y 1, eq_ix2 y⟩
  refine (pair_value _ _ _ _ _ p q).trans ?_
  have hp : p.val < 1024 := p.isLt
  have hq : q.val < 1024 := q.isLt
  let T : Fin 8192 := ⟨i.val * 1024 + p.val, by omega⟩
  let J : Fin 8192 := ⟨j.val * 1024 + q.val, by omega⟩
  show _ = hidOf X Wf Br (((cfg0.win 3).blk (pt0 i j 1)).view.emb (ix2 p q))
  rw [emb0_3_at (pt0 i j 1) i.val j.val e3o p q T J rfl rfl]
  show _ = Cert.Hand.Spec.silu ((∑ r : Fin 4096, X (ix2 T r) * Wf (ix2 J r)) + Br (ix2 (0 : Fin 1) J))
  rw [← Cert.Hand.Sum.sum_two_blocks (fun r : Fin 4096 => X (ix2 T r) * Wf (ix2 J r))]
  have s0 := sum_blk (blk0 V c 0 (pt0 i j 0)) (blk0 V c 1 (pt0 i j 0))
    (fun r => X (ix2 T ⟨r.val, by omega⟩) * Wf (ix2 J ⟨r.val, by omega⟩)) p q (fun r => by
      rw [blk0_0_at V c (pt0 i j 0) i.val (0 : Fin 2).val e0e p r T ⟨r.val, by omega⟩ rfl (by show r.val = 0 * 2048 + r.val; omega),
        blk0_1_at V c (pt0 i j 0) j.val (0 : Fin 2).val e1e q r J ⟨r.val, by omega⟩ rfl (by show r.val = 0 * 2048 + r.val; omega), hX, hW])
  have s1 := sum_blk (blk0 V c 0 (pt0 i j 1)) (blk0 V c 1 (pt0 i j 1))
    (fun r => X (ix2 T ⟨2048 + r.val, by omega⟩) * Wf (ix2 J ⟨2048 + r.val, by omega⟩)) p q (fun r => by
      rw [blk0_0_at V c (pt0 i j 1) i.val (1 : Fin 2).val e0o p r T ⟨2048 + r.val, by omega⟩ rfl (by show 2048 + r.val = 1 * 2048 + r.val; omega),
        blk0_1_at V c (pt0 i j 1) j.val (1 : Fin 2).val e1o q r J ⟨2048 + r.val, by omega⟩ rfl (by show 2048 + r.val = 1 * 2048 + r.val; omega), hX, hW])
  have sb : blk0 V c 2 (pt0 i j 1) (ix2 (0 : Fin 1) q) = Br (ix2 (0 : Fin 1) J) := by
    rw [blk0_2_at V c (pt0 i j 1) j.val e2o q J rfl, hB]
  rw [s0, s1, sb]

/-- THE HIDDEN LAYER after the first region: silu(X·Wᵀ + B). -/
theorem final0 (c : Dev nD) (X Wf : S8192x4096.Idx → EReal) (Br : S1x8192.Idx → EReal)
    (hX : ∀ i, V c main_v5 i = X i) (hW : ∀ i, V c main_v3 i = Wf i) (hB : ∀ i, V c main_v4 i = Br i) :
    (dat0 V c).arrAt 3 cfg0.N = hidOf X Wf Br :=
  (dat0 V c).arrAt_eq_of_cover 3 (hidOf X Wf Br)
    (fun t hf => by
      obtain ⟨i, j, rfl⟩ := pt0_of_odd t ((flush0_3 t).mp hf)
      exact flushed0_pt V c X Wf Br hX hW hB i j)
    cover0_3

end

end Cert.KernelIdeal.Hand

end
-- ==== Proof.KI.Idx1.lean ====
/-
  The second product's grid, coordinate by coordinate.

  Point (i, j, k) is position 16·i + 4·j + k. There the hidden layer's window is block (i, k), the second weight's
  block (j, k) and the result's block (i, j): entry (p, r) of the hidden layer's block is entry
  (1024·i + p, 2048·k + r) of the hidden layer, entry (q, r) of the weight's block is entry
  (1024·j + q, 2048·k + r) of the weight, and entry (p, q) of the result's block is entry
  (1024·i + p, 1024·j + q) of the result. The positions ≡ 3 (mod 4) are the points with k = 3, and the three
  positions before (i, j, 3) are (i, j, 2), (i, j, 1), (i, j, 0). Every entry of the result lies in the block of
  exactly such a point.
-/
import proofs.«170395_j57449482551364_2_alg».proof.Proof.KI.R1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Point (i, j, k) of the second region's grid. -/
def pt1 (i : Fin 8) (j : Fin 4) (k : Fin 4) : Fin cfg1.N := ⟨16 * i.val + 4 * j.val + k.val, by rw [show cfg1.N = 128 from N_1]; omega⟩

theorem pt1_val (i : Fin 8) (j : Fin 4) (k : Fin 4) : (pt1 i j k).val = 16 * i.val + 4 * j.val + k.val := rfl

/-- The printed index maps at point (i, j, k), decided over the grid. -/
theorem idx1 : ∀ (i : Fin 8) (j : Fin 4) (k : Fin 4),
    win1_0.index (pt1 i j k) = ![i.val, k.val] ∧ win1_1.index (pt1 i j k) = ![j.val, k.val]
    ∧ win1_2.index (pt1 i j k) = ![i.val, j.val] := by
  decide +kernel

/-- Every position is some point's. -/
theorem pt1_surj (t : Fin cfg1.N) : ∃ (i : Fin 8) (j : Fin 4) (k : Fin 4), t = pt1 i j k := by
  have hN : t.val < 128 := lt_of_lt_of_eq t.isLt (show cfg1.N = 128 from N_1)
  exact ⟨⟨t.val / 16, by omega⟩, ⟨t.val % 16 / 4, by omega⟩, ⟨t.val % 4, by omega⟩, Fin.ext (by show t.val = 16 * (t.val / 16) + 4 * (t.val % 16 / 4) + t.val % 4; omega)⟩

/-- A position ≡ 3 (mod 4) is a point with k = 3. -/
theorem pt1_of_last (t : Fin cfg1.N) (h : t.val % 4 = 3) : ∃ (i : Fin 8) (j : Fin 4), t = pt1 i j 3 := by
  obtain ⟨i, j, k, rfl⟩ := pt1_surj t
  have hk : k = 3 := Fin.ext (by have := pt1_val i j k; have hk4 := k.isLt; show k.val = 3; omega)
  exact ⟨i, j, by rw [hk]⟩

section
variable (V : (c : Dev nD) → (b : Ref sig .tc) → Buf (Elt F) ((c : Thread nD τ).loc b))

/-- The hidden layer's block at a point whose block index is (a, b), entry (p, r). -/
theorem blk1_0_at (c : Dev nD) (t : Fin cfg1.N) (a b : ℕ) (h : win1_0.index t = ![a, b]) (p : Fin 1024) (r : Fin 2048)
    (T : Fin 8192) (K : Fin 8192) (hT : T.val = a * 1024 + p.val) (hK : K.val = b * 2048 + r.val) :
    blk1 V c 0 t (ix2 p r) = V c main_v7 (ix2 T K) := by
  have h0 : win1_0.index t (0 : Fin 2) = a := by rw [h]; rfl
  have h1 : win1_0.index t (1 : Fin 2) = b := by rw [h]; rfl
  unfold blk1
  show V c main_v7 (((cfg1.win 0).blk t).view.emb (ix2 p r)) = V c main_v7 (ix2 T K)
  congr 1
  funext d; apply Fin.ext
  match d with
  | ⟨0, _⟩ => show win1_0.index t (0 : Fin 2) * 1024 + 1 * p.val = T.val; rw [h0, hT]; omega
  | ⟨1, _⟩ => show win1_0.index t (1 : Fin 2) * 2048 + 1 * r.val = K.val; rw [h1, hK]; omega

/-- The second weight's block at a point whose block index is (a, b), entry (q, r). -/
theorem blk1_1_at (c : Dev nD) (t : Fin cfg1.N) (a b : ℕ) (h : win1_1.index t = ![a, b]) (q : Fin 1024) (r : Fin 2048)
    (D : Fin 4096) (K : Fin 8192) (hD : D.val = a * 1024 + q.val) (hK : K.val = b * 2048 + r.val) :
    blk1 V c 1 t (ix2 q r) = V c main_v6 (ix2 D K) := by
  have h0 : win1_1.index t (0 : Fin 2) = a := by rw [h]; rfl
  have h1 : win1_1.index t (1 : Fin 2) = b := by rw [h]; rfl
  unfold blk1
  show V c main_v6 (((cfg1.win 1).blk t).view.emb (ix2 q r)) = V c main_v6 (ix2 D K)
  congr 1
  funext d; apply Fin.ext
  match d with
  | ⟨0, _⟩ => show win1_1.index t (0 : Fin 2) * 1024 + 1 * q.val = D.val; rw [h0, hD]; omega
  | ⟨1, _⟩ => show win1_1.index t (1 : Fin 2) * 2048 + 1 * r.val = K.val; rw [h1, hK]; omega

end

/-- Entry (p, q) of the result's block at a point whose block index is (a, b) is entry (a·1024 + p, b·1024 + q) of
    the result. -/
theorem emb1_2_at (t : Fin cfg1.N) (a b : ℕ) (h : win1_2.index t = ![a, b]) (p q : Fin 1024)
    (T : Fin 8192) (D : Fin 4096) (hT : T.val = a * 1024 + p.val) (hD : D.val = b * 1024 + q.val) :
    ((cfg1.win 2).blk t).view.emb (ix2 p q) = ix2 T D := by
  have h0 : win1_2.index t (0 : Fin 2) = a := by rw [h]; rfl
  have h1 : win1_2.index t (1 : Fin 2) = b := by rw [h]; rfl
  funext d; apply Fin.ext
  match d with
  | ⟨0, _⟩ => show win1_2.index t (0 : Fin 2) * 1024 + 1 * p.val = T.val; rw [h0, hT]; omega
  | ⟨1, _⟩ => show win1_2.index t (1 : Fin 2) * 1024 + 1 * q.val = D.val; rw [h1, hD]; omega

/-- An entry of the result is in a point's result block iff each coordinate is in the block's range. -/
theorem mem_blk1_2 (t : Fin cfg1.N) (i : S8192x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v8).slice (win1_2.rect t)).set ↔ _
  rw [View.set_slice_whole, Rect.mem_set_unit]
  exact Iff.rfl

/-- Every entry of the result is in the block of a point that writes it back. -/
theorem cover1_2 (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  let bi : Fin 8 := ⟨(i 0).val / 1024, by omega⟩
  let bj : Fin 4 := ⟨(i 1).val / 1024, by omega⟩
  obtain ⟨-, -, e2⟩ := idx1 bi bj 3
  have q0 : win1_2.index (pt1 bi bj 3) (0 : Fin 2) = (i 0).val / 1024 := by rw [e2]; rfl
  have q1 : win1_2.index (pt1 bi bj 3) (1 : Fin 2) = (i 1).val / 1024 := by rw [e2]; rfl
  refine ⟨pt1 bi bj 3, (flush1_2 _).mpr (by rw [pt1_val]; show (16 * bi.val + 4 * bj.val + 3) % 4 = 3; omega), ?_⟩
  rw [mem_blk1_2]
  intro a
  match a with
  | ⟨0, _⟩ => show win1_2.index (pt1 bi bj 3) (0 : Fin 2) * 1024 ≤ (i 0).val ∧ (i 0).val < win1_2.index (pt1 bi bj 3) (0 : Fin 2) * 1024 + 1024; rw [q0]; omega
  | ⟨1, _⟩ => show win1_2.index (pt1 bi bj 3) (1 : Fin 2) * 1024 ≤ (i 1).val ∧ (i 1).val < win1_2.index (pt1 bi bj 3) (1 : Fin 2) * 1024 + 1024; rw [q1]; omega

end Cert.KernelIdeal.Hand

end
-- ==== Proof.KI.Pieces1.lean ====
/-
  The second product's region: what each point's stores leave, as one term over the body's arithmetic.

  Every store of the body writes a whole buffer (the rectangle at offset (0, 0) of the buffer's own extent), so
  the contents a list of such stores leaves are the payload of the LAST store, whatever came before; and a load of
  the whole buffer right after such a store reads that store's payload back. The operand buffers are read whole,
  so a load of one reads the block it holds.
    * At a first point (k = 0) the accumulator is stored twice: zeros first, then the accumulation step applied to
      what is read back (the zeros) and the two operand blocks. It ends at that second payload.
    * At a middle point (k = 1, 2) and at a last point (k = 3) the accumulator is stored once: the accumulation
      step applied to the contents found and the two operand blocks.
    * At a last point the result's buffer is stored once, with the accumulator read back after its store: the new
      accumulator itself, unchanged.
-/
import proofs.«170395_j57449482551364_2_alg».proof.Proof.KI.R1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body are zero. -/
theorem hz11 : (![0, 0] : Fin 2 → Nat) = fun _ => 0 := funext fun a => by fin_cases a <;> rfl

/-- A first point leaves the accumulator at the accumulation step of zeros and its two operand blocks. -/
theorem acc1_first_eq (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : cond1_0 i) (hc1 : ¬cond1_1 i)
    (x0 : Vec F S1024x2048 .bf16) (x1 : Vec F S1024x2048 .bf16) :
    acc1_first c i a3 h3 a4 h4 a5 h5 a6 h6 hc0 hc1 x0 x1 = k1_pay2 (k1_pay1 (F := F)) x0 x1 := by
  unfold acc1_first
  rw [View.read_writes_eq_canon _ _ _ (acc1_first_cover c i a3 h3 a4 h4 a5 h5 a6 h6 hc0 hc1 x0 x1)]
  unfold run1_first
  dsimp only
  sl_unfold_words
  rw [View.canon_cons_unit_zero (S := S1024x1024) hz11, View.readCov_unit_zero (S := S1024x1024) _ hz11]
  simp only [View.readAt_eq_ld, h3.read_unread, h4.read_unread, View.ld_unit_zero (S := S1024x2048) hz11]

/-- A middle point leaves the accumulator at the accumulation step of what it found and its two operand blocks. -/
theorem acc1_mid_eq (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : ¬cond1_1 i)
    (x0 : Vec F S1024x2048 .bf16) (x1 : Vec F S1024x2048 .bf16) (xs : Vec F S1024x1024 .f32) :
    acc1_mid c i a3 h3 a4 h4 a5 h5 a6 h6 hc0 hc1 x0 x1 xs = k1_pay2 xs x0 x1 := by
  unfold acc1_mid
  rw [View.read_writes_eq_canon _ _ _ (acc1_mid_cover c i a3 h3 a4 h4 a5 h5 a6 h6 hc0 hc1 x0 x1 xs)]
  unfold run1_mid
  dsimp only
  sl_unfold_words
  rw [View.canon_unit_zero (S := S1024x1024) hz11]
  simp only [View.readAt_eq_ld, h3.read_unread, h4.read_unread, h6.read_unread,
    View.ld_unit_zero (S := S1024x2048) hz11, View.ld_unit_zero (S := S1024x1024) hz11]

/-- A last point leaves the accumulator at the accumulation step of what it found and its two operand blocks. -/
theorem acc1_last_eq (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : cond1_1 i)
    (x0 : Vec F S1024x2048 .bf16) (x1 : Vec F S1024x2048 .bf16) (xs : Vec F S1024x1024 .f32) :
    acc1_last c i a3 h3 a4 h4 a5 h5 a6 h6 hc0 hc1 x0 x1 xs = k1_pay2 xs x0 x1 := by
  unfold acc1_last
  rw [View.read_writes_eq_canon _ _ _ (acc1_last_cover c i a3 h3 a4 h4 a5 h5 a6 h6 hc0 hc1 x0 x1 xs)]
  unfold run1_last
  dsimp only
  sl_unfold_words
  rw [View.canon_unit_zero (S := S1024x1024) hz11]
  simp only [View.readAt_eq_ld, h3.read_unread, h4.read_unread, h6.read_unread,
    View.ld_unit_zero (S := S1024x2048) hz11, View.ld_unit_zero (S := S1024x1024) hz11]

/-- A last point leaves the result's buffer at the new accumulator. -/
theorem out1_last_eq (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : cond1_1 i)
    (x0 : Vec F S1024x2048 .bf16) (x1 : Vec F S1024x2048 .bf16) (xs : Vec F S1024x1024 .f32) :
    out1_last c i a3 h3 a4 h4 a5 h5 a6 h6 hc0 hc1 x0 x1 xs = k1_pay2 xs x0 x1 := by
  unfold out1_last
  rw [View.read_writes_eq_canon _ _ _ (out1_last_cover c i a3 h3 a4 h4 a5 h5 a6 h6 hc0 hc1 x0 x1 xs)]
  unfold run1_last
  dsimp only
  sl_unfold_words
  rw [View.canon_unit_zero (S := S1024x1024) hz11, View.readCov_unit_zero (S := S1024x1024) _ hz11]
  simp only [View.readAt_eq_ld, h3.read_unread, h4.read_unread, h6.read_unread,
    View.ld_unit_zero (S := S1024x2048) hz11, View.ld_unit_zero (S := S1024x1024) hz11]

end Cert.KernelIdeal.Hand

end
-- ==== Proof.KI.Val1.lean ====
/-
  What the second region leaves in the result, on the extended reals.

  Let H and W2 be what the region finds in the hidden layer [8192, 8192] and the second weight [4096, 8192]. At
  point (i, j, 3) the body stores into the result's block, at entry (p, q),
      (((0 + Σ_{r<2048} H[T, r]·W2[D, r]) + Σ_{r<2048} H[T, 2048 + r]·W2[D, 2048 + r])
          + Σ_{r<2048} H[T, 4096 + r]·W2[D, 4096 + r]) + Σ_{r<2048} H[T, 6144 + r]·W2[D, 6144 + r],
  with T = 1024·i + p and D = 1024·j + q: the accumulator was zeroed and given the first block product at
  (i, j, 0), given the second at (i, j, 1), the third at (i, j, 2) and the fourth at (i, j, 3), where it is copied
  unchanged into the result's block. The four block sums added to zero in order are the sum over all 8192 indices,
  so this is entry (T, D) of H·W2ᵀ, and since every entry of the result lies in such a block the whole array ends at
  that function.
-/
import proofs.«170395_j57449482551364_2_alg».proof.Proof.KI.Idx1
import proofs.«170395_j57449482551364_2_alg».proof.Proof.KI.Pieces1
import proofs.«170395_j57449482551364_2_alg».proof.Proof.Payloads
import proofs.«170395_j57449482551364_2_alg».proof.Proof.SumBlocks
import proofs.«170395_j57449482551364_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- H·W2ᵀ, entry by entry. -/
def outOf (H : S8192x8192.Idx → EReal) (W2 : S4096x8192.Idx → EReal) : S8192x4096.Idx → EReal :=
  fun i => ∑ r : Fin 8192, H (ix2 (i 0) r) * W2 (ix2 (i 1) r)

/-- One entry of what a group of four points (k = 0, 1, 2, 3) leaves in the accumulator, from the eight operand
    blocks. -/
theorem quad_value (x0a x1a x0b x1b x0c x1c x0d x1d : Vec Ideal S1024x2048 .bf16) (p q : Fin 1024) :
    k1_pay2 (k1_pay2 (k1_pay2 (k1_pay2 (k1_pay1 (F := Ideal)) x0a x1a) x0b x1b) x0c x1c) x0d x1d (ix2 p q)
      = (((0 + ∑ r : Fin 2048, x0a (ix2 p r) * x1a (ix2 q r)) + ∑ r : Fin 2048, x0b (ix2 p r) * x1b (ix2 q r))
          + ∑ r : Fin 2048, x0c (ix2 p r) * x1c (ix2 q r)) + ∑ r : Fin 2048, x0d (ix2 p r) * x1d (ix2 q r) := by
  rw [Cert.Hand.Pay.pay_acc', Cert.Hand.Pay.pay_acc', Cert.Hand.Pay.pay_acc', Cert.Hand.Pay.pay_acc', Cert.Hand.Pay.pay_zero']

/-- A block sum, summand by summand. -/
theorem sum_blk1 (x0 x1 : Vec Ideal S1024x2048 .bf16) (g : Fin 2048 → EReal) (p q : Fin 1024)
    (h : ∀ r : Fin 2048, x0 (ix2 p r) * x1 (ix2 q r) = g r) :
    (∑ r : Fin 2048, x0 (ix2 p r) * x1 (ix2 q r)) = ∑ r : Fin 2048, g r :=
  Finset.sum_congr rfl fun r _ => h r

section
variable (V : (c : Dev nD) → (b : Ref sig .tc) → Buf (Elt Ideal) ((c : Thread nD τ).loc b))

theorem outsAt1_congr (c : Dev nD) (n n' : ℕ) (e : n = n') (h : n < cfg1.N) (h' : n' < cfg1.N) :
    outsAt1 V c n h = outsAt1 V c n' h' := by subst e; rfl

/-- What point (i, j, 3) writes back is its block of H·W2ᵀ. -/
theorem flushed1_pt (c : Dev nD) (H : S8192x8192.Idx → EReal) (W2 : S4096x8192.Idx → EReal)
    (hH : ∀ i, V c main_v7 i = H i) (hW : ∀ i, V c main_v6 i = W2 i) (i : Fin 8) (j : Fin 4) :
    (dat1 V c).flushed 2 (pt1 i j 3) = ((cfg1.win 2).blk (pt1 i j 3)).view.read (Elt Ideal) (outOf H W2) := by
  have h3 : (pt1 i j 3).val % 4 = 3 := by rw [pt1_val]; show (16 * i.val + 4 * j.val + 3) % 4 = 3; omega
  have h2a : ¬(pt1 i j 2).val % 4 = 0 := by rw [pt1_val]; show ¬(16 * i.val + 4 * j.val + 2) % 4 = 0; omega
  have h2b : ¬(pt1 i j 2).val % 4 = 3 := by rw [pt1_val]; show ¬(16 * i.val + 4 * j.val + 2) % 4 = 3; omega
  have h1a : ¬(pt1 i j 1).val % 4 = 0 := by rw [pt1_val]; show ¬(16 * i.val + 4 * j.val + 1) % 4 = 0; omega
  have h1b : ¬(pt1 i j 1).val % 4 = 3 := by rw [pt1_val]; show ¬(16 * i.val + 4 * j.val + 1) % 4 = 3; omega
  have h0 : (pt1 i j 0).val % 4 = 0 := by rw [pt1_val]; show (16 * i.val + 4 * j.val + 0) % 4 = 0; omega
  obtain ⟨e0d, e1d, e2d⟩ := idx1 i j 3
  obtain ⟨e0c, e1c, -⟩ := idx1 i j 2
  obtain ⟨e0b, e1b, -⟩ := idx1 i j 1
  obtain ⟨e0a, e1a, -⟩ := idx1 i j 0
  show (cfg1.win 2).cut (grid1.coords (pt1 i j 3)) ((dat1 V c).after 2 (pt1 i j 3)) = _
  rw [after1_2, outsAt1_last V c (pt1 i j 3) h3]
  unfold lastPt
  dsimp only
  rw [out1_last_eq, outsAt1_congr V c ((pt1 i j 3).val - 1) (pt1 i j 2).val (by rw [pt1_val, pt1_val]; show 16 * i.val + 4 * j.val + 3 - 1 = 16 * i.val + 4 * j.val + 2; omega) _ (pt1 i j 2).isLt,
    outsAt1_mid V c (pt1 i j 2) h2a h2b]
  unfold midPt
  dsimp only
  rw [acc1_mid_eq, outsAt1_congr V c ((pt1 i j 2).val - 1) (pt1 i j 1).val (by rw [pt1_val, pt1_val]; show 16 * i.val + 4 * j.val + 2 - 1 = 16 * i.val + 4 * j.val + 1; omega) _ (pt1 i j 1).isLt,
    outsAt1_mid V c (pt1 i j 1) h1a h1b]
  unfold midPt
  dsimp only
  rw [acc1_mid_eq, outsAt1_congr V c ((pt1 i j 1).val - 1) (pt1 i j 0).val (by rw [pt1_val, pt1_val]; show 16 * i.val + 4 * j.val + 1 - 1 = 16 * i.val + 4 * j.val + 0; omega) _ (pt1 i j 0).isLt,
    outsAt1_first V c (pt1 i j 0) h0]
  unfold firstPt
  dsimp only
  rw [acc1_first_eq]
  funext y
  obtain ⟨p, q, rfl⟩ : ∃ (p q : Fin 1024), y = ix2 p q := ⟨y 0, y 1, eq_ix2 y⟩
  refine (quad_value _ _ _ _ _ _ _ _ p q).trans ?_
  have hp : p.val < 1024 := p.isLt
  have hq : q.val < 1024 := q.isLt
  let T : Fin 8192 := ⟨i.val * 1024 + p.val, by omega⟩
  let D : Fin 4096 := ⟨j.val * 1024 + q.val, by omega⟩
  show _ = outOf H W2 (((cfg1.win 2).blk (pt1 i j 3)).view.emb (ix2 p q))
  rw [emb1_2_at (pt1 i j 3) i.val j.val e2d p q T D rfl rfl]
  show _ = ∑ r : Fin 8192, H (ix2 T r) * W2 (ix2 D r)
  rw [← Cert.Hand.Sum.sum_four_blocks (fun r : Fin 8192 => H (ix2 T r) * W2 (ix2 D r))]
  have sa := sum_blk1 (blk1 V c 0 (pt1 i j 0)) (blk1 V c 1 (pt1 i j 0))
    (fun r => H (ix2 T ⟨r.val, by omega⟩) * W2 (ix2 D ⟨r.val, by omega⟩)) p q (fun r => by
      rw [blk1_0_at V c (pt1 i j 0) i.val (0 : Fin 4).val e0a p r T ⟨r.val, by omega⟩ rfl (by show r.val = 0 * 2048 + r.val; omega),
        blk1_1_at V c (pt1 i j 0) j.val (0 : Fin 4).val e1a q r D ⟨r.val, by omega⟩ rfl (by show r.val = 0 * 2048 + r.val; omega), hH, hW])
  have sb := sum_blk1 (blk1 V c 0 (pt1 i j 1)) (blk1 V c 1 (pt1 i j 1))
    (fun r => H (ix2 T ⟨2048 + r.val, by omega⟩) * W2 (ix2 D ⟨2048 + r.val, by omega⟩)) p q (fun r => by
      rw [blk1_0_at V c (pt1 i j 1) i.val (1 : Fin 4).val e0b p r T ⟨2048 + r.val, by omega⟩ rfl (by show 2048 + r.val = 1 * 2048 + r.val; omega),
        blk1_1_at V c (pt1 i j 1) j.val (1 : Fin 4).val e1b q r D ⟨2048 + r.val, by omega⟩ rfl (by show 2048 + r.val = 1 * 2048 + r.val; omega), hH, hW])
  have sc := sum_blk1 (blk1 V c 0 (pt1 i j 2)) (blk1 V c 1 (pt1 i j 2))
    (fun r => H (ix2 T ⟨4096 + r.val, by omega⟩) * W2 (ix2 D ⟨4096 + r.val, by omega⟩)) p q (fun r => by
      rw [blk1_0_at V c (pt1 i j 2) i.val (2 : Fin 4).val e0c p r T ⟨4096 + r.val, by omega⟩ rfl (by show 4096 + r.val = 2 * 2048 + r.val; omega),
        blk1_1_at V c (pt1 i j 2) j.val (2 : Fin 4).val e1c q r D ⟨4096 + r.val, by omega⟩ rfl (by show 4096 + r.val = 2 * 2048 + r.val; omega), hH, hW])
  have sd := sum_blk1 (blk1 V c 0 (pt1 i j 3)) (blk1 V c 1 (pt1 i j 3))
    (fun r => H (ix2 T ⟨6144 + r.val, by omega⟩) * W2 (ix2 D ⟨6144 + r.val, by omega⟩)) p q (fun r => by
      rw [blk1_0_at V c (pt1 i j 3) i.val (3 : Fin 4).val e0d p r T ⟨6144 + r.val, by omega⟩ rfl (by show 6144 + r.val = 3 * 2048 + r.val; omega),
        blk1_1_at V c (pt1 i j 3) j.val (3 : Fin 4).val e1d q r D ⟨6144 + r.val, by omega⟩ rfl (by show 6144 + r.val = 3 * 2048 + r.val; omega), hH, hW])
  rw [sa, sb, sc, sd]

/-- THE RESULT after the second region: H·W2ᵀ. -/
theorem final1 (c : Dev nD) (H : S8192x8192.Idx → EReal) (W2 : S4096x8192.Idx → EReal)
    (hH : ∀ i, V c main_v7 i = H i) (hW : ∀ i, V c main_v6 i = W2 i) :
    (dat1 V c).arrAt 2 cfg1.N = outOf H W2 :=
  (dat1 V c).arrAt_eq_of_cover 2 (outOf H W2)
    (fun t hf => by
      obtain ⟨i, j, rfl⟩ := pt1_of_last t ((flush1_2 t).mp hf)
      exact flushed1_pt V c H W2 hH hW i j)
    cover1_2

end

end Cert.KernelIdeal.Hand

end
-- ==== Proof.KI.Alg.lean ====
/-
  The idealized kernel's result is the specified array.

  The second region leaves in the result's buffer the product of the hidden layer, as it finds it, against the
  transposed second weight; the hidden layer it finds is what the first region left, silu(X·Wᵀ + B) of the operands
  the host stretch prepared; and those operands are x, W1 less its rows' zero points, and the bias as a row. Written
  out entry by entry this is the specification's out[t, d] = Σ_j silu((Σ_k x[t,k]·(W1[j,k] − zp[j])) + b1[j]) · W2[d,j].
-/
import proofs.«170395_j57449482551364_2_alg».proof.Proof.KI.HostVals
import proofs.«170395_j57449482551364_2_alg».proof.Proof.KI.Val0
import proofs.«170395_j57449482551364_2_alg».proof.Proof.KI.Val1
import proofs.«170395_j57449482551364_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The first product's right operand, as the region finds it. -/
abbrev wOf (c : Dev nD) : S8192x4096.Idx → EReal := fun i => aW1 m c i - aZp m c (ix1 (i 0))
/-- The bias row, as the region finds it. -/
abbrev bOf (c : Dev nD) : S1x8192.Idx → EReal := fun i => aB1 m c (ix1 (i 1))

/-- The hidden layer, as the second region finds it. -/
theorem hidden_eq (c : Dev nD) (i : S8192x8192.Idx) :
    V2 m ρ c main_v7 i = hidOf (aX m c) (wOf m c) (bOf m c) i := by
  rw [V2_main_v7 m ρ c, final0 (V1 m ρ) c (aX m c) (wOf m c) (bOf m c) (V1_v5 m ρ c) (V1_v3 m ρ c) (V1_v4 m ρ c)]

/-- The second weight, as the second region finds it. -/
theorem weight2_eq (c : Dev nD) (i : S4096x8192.Idx) : V2 m ρ c main_v6 i = aW2 m c i := by
  rw [V2_of_ne m ρ c main_v6 (by decide)]
  exact V1_v6 m ρ c i

/-- The two products composed are the specification, entry by entry. -/
theorem composed_eq (c : Dev nD) :
    outOf (hidOf (aX m c) (wOf m c) (bOf m c)) (aW2 m c) = Cert.Hand.Spec.outArr (aX m c) (aW1 m c) (aB1 m c) (aZp m c) (aW2 m c) := by
  funext i
  rfl

/-- THE RESULT: what the run leaves in the result's buffer is the specified array of the arguments. -/
theorem result_eq (c : Dev nD) :
    W3 m ρ c (Proc.devRef .tc main_v8) = Cert.Hand.Spec.outArr (aX m c) (aW1 m c) (aB1 m c) (aZp m c) (aW2 m c) := by
  rw [W3_main_v8 m ρ c, final1 (V2 m ρ) c (hidOf (aX m c) (wOf m c) (bOf m c)) (aW2 m c) (hidden_eq m ρ c) (weight2_eq m ρ c)]
  exact composed_eq m c

end Cert.KernelIdeal.Hand

end
-- ==== Proof.RefSpec.lean ====
/-
  The reference program computes the specified array.

  Read stage by stage at an entry (t, d), the reference is
    Σ_j h[t, j] · W2[d, j],   h[t, j] = a · (1 / (1 + exp(−a))),   a = (Σ_k x[t, k] · (W1[j, k] − zp[j])) + b1[j],
  where the zero point and the bias reach their entries through two broadcasts each (a vector made a column and
  spread over the columns; a vector made a row and spread over the rows), which read the vector at the row index
  j in both cases.  The quotient 1 / (1 + exp(−a)) is the logistic function of the extended reals by definition,
  once the constant 1.0 is read as the real 1.  So the reference's entry is the specification's entry, sum for sum
  and term for term: no law of arithmetic is used.
-/
import proofs.«170395_j57449482551364_2_alg».proof.Proof.Gen.ReferenceIdeal.Read
import proofs.«170395_j57449482551364_2_alg».proof.Proof.Spec

noncomputable section

namespace Cert.Hand.Ref

open Idealize.ShloMosaic Idealize.ShloMosaic.ValueIdx Cert.ReferenceIdeal Cert.ReferenceIdeal.Gen Cert.ReferenceIdeal.Read
open Cert.Hand

/-- The constant 1.0 denotes the real 1. -/
theorem one_word : Ideal.ofBits .f32 0x3F800000#32 = 1 := by
  simp [Ideal.ofBits, Ideal.ieee, -EReal.coe_mul]; norm_num

variable (x0 x1 : (⟨S8192x4096, .f32⟩ : BufTy).Contents (Elt Ideal)) (x2 x3 : (⟨S8192, .f32⟩ : BufTy).Contents (Elt Ideal))
  (x4 : (⟨S4096x8192, .f32⟩ : BufTy).Contents (Elt Ideal))

/-- The first layer before its activation: the product against the shifted weight, plus the bias. -/
theorem pre_eq (t j : Fin 8192) :
    val_main_v6 (F := Ideal) x0 x1 x2 x3 (ix2 t j) = Spec.pre x0 x1 x2 x3 t j := by
  have eb : idx_main_v4 (idx_main_v5 (ix2 t j)) = ix1 j :=
    funext fun a => Fin.ext (by match a with | ⟨0, _⟩ => rfl)
  rw [val_main_v6_apply, val_main_v3_apply, val_main_v5_apply, val_main_v4_apply, eb]
  refine congrArg (· + x2 (ix1 j)) (Finset.sum_congr rfl fun k _ => ?_)
  have el : lidx_main_v3 (ix2 t j) k = ix2 t k :=
    funext fun a => Fin.ext (by match a with | ⟨0, _⟩ => rfl | ⟨1, _⟩ => rfl)
  have er : ridx_main_v3 (ix2 t j) k = ix2 j k :=
    funext fun a => Fin.ext (by match a with | ⟨0, _⟩ => rfl | ⟨1, _⟩ => rfl)
  have ez : idx_main_v0 (idx_main_v1 (ix2 j k)) = ix1 j :=
    funext fun a => Fin.ext (by match a with | ⟨0, _⟩ => rfl)
  rw [el, er, val_main_v2_apply, val_main_v1_apply, val_main_v0_apply, ez]
  rfl

/-- The hidden layer: SiLU of the first layer, the logistic function spelt as 1 / (1 + exp(−a)). -/
theorem hid_eq (t j : Fin 8192) :
    val_main_v7 (F := Ideal) x0 x1 x2 x3 (ix2 t j) = Spec.hid x0 x1 x2 x3 t j := by
  rw [val_main_v7_apply, val_main_call0_v5_apply, val_main_call0_v4_apply, val_main_call0_cst_0_apply,
    val_main_call0_v3_apply, val_main_call0_v2_apply, val_main_call0_cst_apply, val_main_call0_v1_apply,
    val_main_call0_v0_apply, pre_eq, Ideal.ofBits_def, one_word]
  rfl

/-- The reference's result is the specified array. -/
theorem ref_is_spec :
    val_main_v8 (F := Ideal) x0 x1 x2 x3 x4 = Spec.outArr x0 x1 x2 x3 x4 := by
  funext i
  obtain ⟨t, d, rfl⟩ : ∃ (t : Fin 8192) (d : Fin 4096), i = ix2 t d := ⟨i 0, i 1, eq_ix2 i⟩
  rw [val_main_v8_apply]
  show _ = ∑ j : Fin 8192, Spec.hid x0 x1 x2 x3 t j * x4 (ix2 d j)
  refine Finset.sum_congr rfl fun j _ => ?_
  have el : lidx_main_v8 (ix2 t d) j = ix2 t j :=
    funext fun a => Fin.ext (by match a with | ⟨0, _⟩ => rfl | ⟨1, _⟩ => rfl)
  have er : ridx_main_v8 (ix2 t d) j = ix2 d j :=
    funext fun a => Fin.ext (by match a with | ⟨0, _⟩ => rfl | ⟨1, _⟩ => rfl)
  rw [el, er, hid_eq]

end Cert.Hand.Ref

end
-- ==== Proof.lean ====
/-
  Both programs compute out = SiLU(x · (W1 − zp)ᵀ + b1) · W2ᵀ on the extended reals.

  The kernel does it in two regions, each a matrix product against a transposed right operand accumulated block by
  block along the contracted axis into a zeroed accumulator that it carries from one grid point to the next (two
  blocks of 2048 for the first product, four for the second); the first region adds the bias, applies the
  activation and stores the hidden layer, the second stores its accumulator as the result. The reference computes
  the two products whole. A change of float format is the identity on the extended reals, the logistic function is
  the same function on both sides, and a sum over 4096 (or 8192) indices is the sum of its consecutive blocks of
  2048 added to zero in order: addition of extended reals is associative and commutative, so nothing here needs the
  inputs to be finite.

  The frames: each region's body is run whole at each kind of point (the first point of a group zeroes the
  accumulator, the last stores the output block), the accumulator's contents are carried by the region's
  invariant from point to point, and the two regions are chained after the host stretch that prepares the operands.
  The word-level program is the same text and has the same frame proof.
-/
import proofs.«170395_j57449482551364_2_alg».proof.Defs
import proofs.«170395_j57449482551364_2_alg».proof.Proof.Gen.Kernel
import proofs.«170395_j57449482551364_2_alg».proof.Proof.Gen.KernelIdeal
import proofs.«170395_j57449482551364_2_alg».proof.Proof.Gen.ReferenceIdeal
import proofs.«170395_j57449482551364_2_alg».proof.Proof.Gen.Pre_finite_inputs
import proofs.«170395_j57449482551364_2_alg».proof.Proof.Gen.ReferenceIdeal.Run
import proofs.«170395_j57449482551364_2_alg».proof.Proof.Gen.ReferenceIdeal.Read
import proofs.«170395_j57449482551364_2_alg».proof.Proof.KB.Compose
import proofs.«170395_j57449482551364_2_alg».proof.Proof.KI.Compose
import proofs.«170395_j57449482551364_2_alg».proof.Proof.KI.Alg
import proofs.«170395_j57449482551364_2_alg».proof.Proof.RefSpec
import Idealize.ShloMosaic.Adequacy
import Idealize.ShloMosaic.Init

noncomputable section

namespace Cert.Proof

open Idealize.ShloMosaic Idealize.SL.Sem

/-- The word-level kernel runs to the end and leaves its arguments as launched. -/
theorem frame_k : @Cert.frame_Kernel Cert.Kernel.Gen.facts Cert.Pre_finite_inputs.Gen.facts :=
  fun m ρ _ => Cert.Kernel.Hand.frame (F := Bits) m ρ

/-- So does the idealized kernel. -/
theorem frame_ki : @Cert.frame_KernelIdeal Cert.KernelIdeal.Gen.facts Cert.Pre_finite_inputs.Gen.facts :=
  fun m ρ _ => Cert.KernelIdeal.Hand.frame (F := Ideal) m ρ

/-- The reference is a straight line of host operations: its run, with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

section
open Cert.KernelIdeal Cert.KernelIdeal.Hand

/-- From memories that agree on the five arguments both idealized programs end with the same result array: the
    kernel's run leaves the specified array in its result buffer, and the reference's composed term is the same
    specified array of the same arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Hand.Spec.outArr (aX m c) (aW1 m c) (aB1 m c) (aZp m c) (aW2 m c), ?_, ?_⟩
  · exact (θ_run Cert.KernelIdeal.defs _ _).mono (fun r h c =>
      ⟨(h c _ (mem_uc main_v8 (by decide))).trans (result_eq m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩) (run_all m ρ)
  · refine (θ_run Cert.ReferenceIdeal.defs _ _).mono (fun r h c => ⟨?_, (h c).2⟩) (Cert.ReferenceIdeal.Value.run (F := Ideal) m' ρ')
    rw [(h c).1, Cert.ReferenceIdeal.Read.val_main_v8_eq, Cert.Hand.Ref.ref_is_spec,
      (hagree c).1, (hagree c).2.1, (hagree c).2.2.1, (hagree c).2.2.2.1, (hagree c).2.2.2.2]

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
